-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x21 : Shape := ⟨2, ![200000, 21]⟩
abbrev S2x6400000 : Shape := ⟨2, ![2, 6400000]⟩
abbrev S21x16 : Shape := ⟨2, ![21, 16]⟩
abbrev S16 : Shape := ⟨1, ![16]⟩
abbrev S16x6 : Shape := ⟨2, ![16, 6]⟩
abbrev S6 : Shape := ⟨1, ![6]⟩
abbrev S_ : Shape := ⟨0, ![]⟩

class Facts : Prop where
  bcast_S_S200000x21 : S_.BroadcastsInDim S200000x21 (![] : Fin 0 → Fin S200000x21.rank)
  reducesTo_S200000x21_S_d0_1 : S200000x21.ReducesTo [0, 1] S_
  h_S_ : 0 < S_.numel
  bcast_S_S21x16 : S_.BroadcastsInDim S21x16 (![] : Fin 0 → Fin S21x16.rank)
  reducesTo_S21x16_S_d0_1 : S21x16.ReducesTo [0, 1] S_
  bcast_S_S16 : S_.BroadcastsInDim S16 (![] : Fin 0 → Fin S16.rank)
  reducesTo_S16_S_d0 : S16.ReducesTo [0] S_
  bcast_S_S16x6 : S_.BroadcastsInDim S16x6 (![] : Fin 0 → Fin S16x6.rank)
  reducesTo_S16x6_S_d0_1 : S16x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S6 .f32) (main_v13 : IVec S_ 1) (main_v16 : IVec S16x6 1) : IVec S_ 1 :=
  let main_c_5 : IVec S_ 1 := constantI S_ 1 1#1
  let main_v17 : IVec S_ 1 := (fun x v => Host.reduce IntOp.andi x v reducesTo_S16x6_S_d0_1 h_S_) main_v16 main_c_5
  let main_v18 : IVec S_ 1 := andi main_v13 main_v17
  let main_v19 : FVec F S6 .f32 := Host.absf main_arg5
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  main_v23

def fn {F : FTy → Type} [FloatOps F] (main_arg0 : FVec F S200000x21 .f32) (main_arg1 : IVec S2x6400000 32) (main_arg2 : FVec F S21x16 .f32) (main_arg3 : FVec F S16 .f32) (main_arg4 : FVec F S16x6 .f32) (main_arg5 : FVec F S6 .f32) : IVec S_ 1 :=
  let main_v0 : FVec F S200000x21 .f32 := Host.absf main_arg0
  let main_cst : FVec F S_ .f32 := constant S_ .f32 0x7F800000#32
  let main_v1 : FVec F S200000x21 .f32 := broadcastInDim S200000x21 ![] bcast_S_S200000x21 main_cst
  let main_v2 : IVec S200000x21 1 := cmpf .olt main_v0 main_v1
  let main_c : IVec S_ 1 := constantI S_ 1 1#1
  let main_v3 : IVec S_ 1 := (fun x v => Host.reduce IntOp.andi x v reducesTo_S200000x21_S_d0_1 h_S_) main_v2 main_c
  let main_v4 : FVec F S21x16 .f32 := Host.absf main_arg2
  let main_cst_0 : FVec F S_ .f32 := constant S_ .f32 0x7F800000#32
  let main_v5 : FVec F S21x16 .f32 := broadcastInDim S21x16 ![] bcast_S_S21x16 main_cst_0
  let main_v6 : IVec S21x16 1 := cmpf .olt main_v4 main_v5
  let main_c_1 : IVec S_ 1 := constantI S_ 1 1#1
  let main_v7 : IVec S_ 1 := (fun x v => Host.reduce IntOp.andi x v reducesTo_S21x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x6 .f32 := Host.absf main_arg4
  let main_cst_4 : FVec F S_ .f32 := constant S_ .f32 0x7F800000#32
  let main_v15 : FVec F S16x6 .f32 := broadcastInDim S16x6 ![] bcast_S_S16x6 main_cst_4
  let main_v16 : IVec S16x6 1 := cmpf .olt main_v14 main_v15
  fn_part1 (F := F) main_arg5 main_v13 main_v16
-- ==== Kernel.lean ====
abbrev S200000x21 : Shape := ⟨2, ![200000, 21]⟩
abbrev S2x6400000 : Shape := ⟨2, ![2, 6400000]⟩
abbrev S21x16 : Shape := ⟨2, ![21, 16]⟩
abbrev S16 : Shape := ⟨1, ![16]⟩
abbrev S16x6 : Shape := ⟨2, ![16, 6]⟩
abbrev S6 : Shape := ⟨1, ![6]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S5000x21 : Shape := ⟨2, ![5000, 21]⟩
abbrev S5000x16 : Shape := ⟨2, ![5000, 16]⟩
abbrev S6600000x16 : Shape := ⟨2, ![6600000, 16]⟩
abbrev S1x16 : Shape := ⟨2, ![1, 16]⟩
abbrev S200000x6 : Shape := ⟨2, ![200000, 6]⟩
abbrev S5000x6 : Shape := ⟨2, ![5000, 6]⟩
abbrev S6600000x6 : Shape := ⟨2, ![6600000, 6]⟩
abbrev S1x6 : Shape := ⟨2, ![1, 6]⟩
abbrev S5000 : Shape := ⟨1, ![5000]⟩
abbrev S5000x1 : Shape := ⟨2, ![5000, 1]⟩

abbrev nBuf : Space → Nat
  | .hbm => 83
  | .vmem => 20
  | .smem => 0
  | _ => 0

abbrev bufTy : (tb : Table) → Fin (tcTables nBuf tb) → BufTy
  | .hbm, ⟨0, _⟩ => ⟨S200000x21, .f32⟩
  | .hbm, ⟨1, _⟩ => ⟨S2x6400000, .i32⟩
  | .hbm, ⟨2, _⟩ => ⟨S21x16, .f32⟩
  | .hbm, ⟨3, _⟩ => ⟨S16, .f32⟩
  | .hbm, ⟨4, _⟩ => ⟨S16x6, .f32⟩
  | .hbm, ⟨5, _⟩ => ⟨S6, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S6600000x1, .f32⟩
  | .hbm, ⟨47, _⟩ => ⟨S200000x16, .f32⟩
  | .hbm, ⟨48, _⟩ => ⟨S_, .i32⟩
  | .hbm, ⟨49, _⟩ => ⟨S6600000, .i32⟩
  | .hbm, ⟨50, _⟩ => ⟨S6600000, .i1⟩
  | .hbm, ⟨51, _⟩ => ⟨S_, .i32⟩
  | .hbm, ⟨52, _⟩ => ⟨S6600000, .i32⟩
  | .hbm, ⟨53, _⟩ => ⟨S6600000, .i32⟩
  | .hbm, ⟨54, _⟩ => ⟨S6600000, .i32⟩
  | .hbm, ⟨55, _⟩ => ⟨S6600000x1, .i32⟩
  | .hbm, ⟨56, _⟩ => ⟨S6600000x16, .f32⟩
  | .hbm, ⟨57, _⟩ => ⟨S6600000x16, .f32⟩
  | .hbm, ⟨58, _⟩ => ⟨S6600000x16, .f32⟩
  | .hbm, ⟨59, _⟩ => ⟨S_, .f32⟩
  | .hbm, ⟨60, _⟩ => ⟨S200000x16, .f32⟩
  | .hbm, ⟨61, _⟩ => ⟨S6600000x1, .i32⟩
  | .hbm, ⟨62, _⟩ => ⟨S200000x16, .f32⟩
  | .hbm, ⟨63, _⟩ => ⟨S1x16, .f32⟩
  | .hbm, ⟨64, _⟩ => ⟨S200000x16, .f32⟩
  | .hbm, ⟨65, _⟩ => ⟨S200000x6, .f32⟩
  | .hbm, ⟨66, _⟩ => ⟨S_, .i32⟩
  | .hbm, ⟨67, _⟩ => ⟨S6600000, .i32⟩
  | .hbm, ⟨68, _⟩ => ⟨S6600000, .i1⟩
  | .hbm, ⟨69, _⟩ => ⟨S_, .i32⟩
  | .hbm, ⟨70, _⟩ => ⟨S6600000, .i32⟩
  | .hbm, ⟨71, _⟩ => ⟨S6600000, .i32⟩
  | .hbm, ⟨72, _⟩ => ⟨S6600000, .i32⟩
  | .hbm, ⟨73, _⟩ => ⟨S6600000x1, .i32⟩
  | .hbm, ⟨74, _⟩ => ⟨S6600000x6, .f32⟩
  | .hbm, ⟨75, _⟩ => ⟨S6600000x6, .f32⟩
  | .hbm, ⟨76, _⟩ => ⟨S6600000x6, .f32⟩
  | .hbm, ⟨77, _⟩ => ⟨S_, .f32⟩
  | .hbm, ⟨78, _⟩ => ⟨S200000x6, .f32⟩
  | .hbm, ⟨79, _⟩ => ⟨S6600000x1, .i32⟩
  | .hbm, ⟨80, _⟩ => ⟨S200000x6, .f32⟩
  | .hbm, ⟨81, _⟩ => ⟨S1x6, .f32⟩
  | .hbm, ⟨82, _⟩ => ⟨S200000x6, .f32⟩
  | .local _ .vmem, ⟨0, _⟩ => ⟨S5000x21, .f32⟩
  | .local _ .vmem, ⟨1, _⟩ => ⟨S5000x21, .f32⟩
  | .local _ .vmem, ⟨2, _⟩ => ⟨S21x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x6, .f32⟩
  | .local _ .vmem, ⟨13, _⟩ => ⟨S5000x6, .f32⟩
  | .local _ .vmem, ⟨14, _⟩ => ⟨S5000x6, .f32⟩
  | .local _ .vmem, ⟨15, _⟩ => ⟨S5000x6, .f32⟩
  | .local _ .vmem, ⟨16, _⟩ => ⟨S5000x6, .f32⟩
  | .local _ .vmem, ⟨17, _⟩ => ⟨S1x6, .f32⟩
  | .local _ .vmem, ⟨18, _⟩ => ⟨S5000x6, .f32⟩
  | .local _ .vmem, ⟨19, _⟩ => ⟨S5000x6, .f32⟩
  | _, _ => ⟨S200000x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S21x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x6 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x6 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x6 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x6 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S5000x21_S5000x21_0_0 : ∀ a, (![0, 0] : Fin 2 → Nat) a + S5000x21.size a ≤ S5000x21.size a
  h_S5000x21 : 0 < S5000x21.numel
  bitsLt_bf16_f32 : FTy.bits .bf16 < FTy.bits .f32
  inb_S21x16_S21x16_0_0 : ∀ a, (![0, 0] : Fin 2 → Nat) a + S21x16.size a ≤ S21x16.size a
  h_S21x16 : 0 < S21x16.numel
  inb_S5000x16_S5000x16_0_0 : ∀ a, (![0, 0] : Fin 2 → Nat) a + S5000x16.size a ≤ S5000x16.size a
  h_S5000x16 : 0 < S5000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S5000x16_S5000x16 : S5000x16.ShapeCasts S5000x16
  inb_S16x6_S16x6_0_0 : ∀ a, (![0, 0] : Fin 2 → Nat) a + S16x6.size a ≤ S16x6.size a
  h_S16x6 : 0 < S16x6.numel
  inb_S5000x6_S5000x6_0_0 : ∀ a, (![0, 0] : Fin 2 → Nat) a + S5000x6.size a ≤ S5000x6.size a
  h_S5000x6 : 0 < S5000x6.numel
  bcast_S6600000x1_S6600000x6_0_1 : S6600000x1.BroadcastsInDim S6600000x6 (![0, 1] : Fin 2 → Fin S6600000x6.rank)
  bcast_S_S200000x6 : S_.BroadcastsInDim S200000x6 (![] : Fin 0 → Fin S200000x6.rank)
  shapeCasts_S6_S1x6 : S6.ShapeCasts S1x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  shapeCasts_S5000x6_S5000x6 : S5000x6.ShapeCasts S5000x6
  reduces_S5000x6_S5000 : S5000x6.Reduces [1] S5000
  shapeCasts_S5000_S5000x1 : S5000.ShapeCasts S5000x1
  broadcasts_S5000x1_S5000x6 : S5000x1.Broadcasts S5000x6
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S5000x21_S21x16_S5000x16_1_0_0_1_n_n_wf : DotDims.WF S5000x21 S21x16 S5000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S5000x16_S16x6_S5000x6_1_0_0_1_n_n_wf : DotDims.WF S5000x16 S16x6 S5000x6 [1] [0] [0] [1] [] []
  gather_S200000x6_S6600000x1_S6600000x6_1_0_n_n_0_1_16_wf : GatherDims.WF S200000x6 S6600000x1 S6600000x6 [1] [0] [] [0] [] 1 ![1, 6]
  scatter_S200000x6_S6600000x1_S6600000x6_1_0_0_1_wf : ScatterDims.WF S200000x6 S6600000x1 S6600000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x21.size a ≤ S200000x21.size a
  hwx0_0 : ∀ i : grid0.Coords, EltTy.bits .f32 = 32 ∨ (Rect.block (s := S200000x21) S5000x21.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S21x16.size a ≤ S21x16.size a
  hwx0_1 : ∀ i : grid0.Coords, EltTy.bits .f32 = 32 ∨ (Rect.block (s := S21x16) S21x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S200000x16.size a
  hwx0_2 : ∀ i : grid0.Coords, EltTy.bits .f32 = 32 ∨ (Rect.block (s := S200000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S200000x16.size a
  hwx1_2 : ∀ i : grid1.Coords, EltTy.bits .f32 = 32 ∨ (Rect.block (s := S200000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S200000x16.size a
  hwx2_0 : ∀ i : grid2.Coords, EltTy.bits .f32 = 32 ∨ (Rect.block (s := S200000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x6.size a ≤ S16x6.size a
  hwx2_1 : ∀ i : grid2.Coords, EltTy.bits .f32 = 32 ∨ (Rect.block (s := S16x6) S16x6.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x6.size a ≤ S200000x6.size a
  hwx2_2 : ∀ i : grid2.Coords, EltTy.bits .f32 = 32 ∨ (Rect.block (s := S200000x6) S5000x6.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x6.size a ≤ S200000x6.size a
  hwx3_0 : ∀ i : grid3.Coords, EltTy.bits .f32 = 32 ∨ (Rect.block (s := S200000x6) S5000x6.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x6.size a ≤ S1x6.size a
  hwx3_1 : ∀ i : grid3.Coords, EltTy.bits .f32 = 32 ∨ (Rect.block (s := S1x6) S1x6.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x6.size a ≤ S200000x6.size a
  hwx3_2 : ∀ i : grid3.Coords, EltTy.bits .f32 = 32 ∨ (Rect.block (s := S200000x6) S5000x6.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S5000x21_S21x16_S5000x16_1_0_0_1_n_n : DotDims S5000x21 S21x16 S5000x16 where
  lhsContracting := [1]
  rhsContracting := [0]
  lhsNonContracting := [0]
  rhsNonContracting := [1]
  lhsBatch := []
  rhsBatch := []
  wf := dot_S5000x21_S21x16_S5000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S5000x16_S16x6_S5000x6_1_0_0_1_n_n : DotDims S5000x16 S16x6 S5000x6 where
  lhsContracting := [1]
  rhsContracting := [0]
  lhsNonContracting := [0]
  rhsNonContracting := [1]
  lhsBatch := []
  rhsBatch := []
  wf := dot_S5000x16_S16x6_S5000x6_1_0_0_1_n_n_wf
def gather_S200000x6_S6600000x1_S6600000x6_1_0_n_n_0_1_16 : GatherDims S200000x6 S6600000x1 S6600000x6 where
  offsetDims := [1]
  collapsedSliceDims := [0]
  operandBatchingDims := []
  startIndicesBatchingDims := []
  startIndexMap := [0]
  indexVectorDim := 1
  sliceSizes := ![1, 6]
  wf := gather_S200000x6_S6600000x1_S6600000x6_1_0_n_n_0_1_16_wf
def scatter_S200000x6_S6600000x1_S6600000x6_1_0_0_1 : ScatterDims S200000x6 S6600000x1 S6600000x6 where
  updateWindowDims := [1]
  insertedWindowDims := [0]
  scatterDimsToOperandDims := [0]
  indexVectorDim := 1
  wf := scatter_S200000x6_S6600000x1_S6600000x6_1_0_0_1_wf

abbrev win0_0 : Pipeline.Window sig grid0 :=
  Pipeline.Window.ofSpec (Memref.whole main_arg0) S5000x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S21x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x6.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x6.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x6.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x6.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x6.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x21 : Shape := ⟨2, ![200000, 21]⟩
abbrev S2x6400000 : Shape := ⟨2, ![2, 6400000]⟩
abbrev S21x16 : Shape := ⟨2, ![21, 16]⟩
abbrev S16 : Shape := ⟨1, ![16]⟩
abbrev S16x6 : Shape := ⟨2, ![16, 6]⟩
abbrev S6 : Shape := ⟨1, ![6]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S200000x6 : Shape := ⟨2, ![200000, 6]⟩
abbrev S6600000x6 : Shape := ⟨2, ![6600000, 6]⟩
abbrev S1x6 : Shape := ⟨2, ![1, 6]⟩
abbrev S200000x1 : Shape := ⟨2, ![200000, 1]⟩

abbrev nBuf : Space → Nat
  | .hbm => 104
  | .vmem => 0
  | .smem => 0
  | _ => 0

abbrev bufTy : (tb : Table) → Fin (tcTables nBuf tb) → BufTy
  | .hbm, ⟨0, _⟩ => ⟨S200000x21, .f32⟩
  | .hbm, ⟨1, _⟩ => ⟨S2x6400000, .i32⟩
  | .hbm, ⟨2, _⟩ => ⟨S21x16, .f32⟩
  | .hbm, ⟨3, _⟩ => ⟨S16, .f32⟩
  | .hbm, ⟨4, _⟩ => ⟨S16x6, .f32⟩
  | .hbm, ⟨5, _⟩ => ⟨S6, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x16, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x1, .f32⟩
  | .hbm, ⟨57, _⟩ => ⟨S6600000x16, .f32⟩
  | .hbm, ⟨58, _⟩ => ⟨S6600000x16, .f32⟩
  | .hbm, ⟨59, _⟩ => ⟨S_, .f32⟩
  | .hbm, ⟨60, _⟩ => ⟨S200000x16, .f32⟩
  | .hbm, ⟨61, _⟩ => ⟨S6600000x1, .i32⟩
  | .hbm, ⟨62, _⟩ => ⟨S200000x16, .f32⟩
  | .hbm, ⟨63, _⟩ => ⟨S1x16, .f32⟩
  | .hbm, ⟨64, _⟩ => ⟨S200000x16, .f32⟩
  | .hbm, ⟨65, _⟩ => ⟨S200000x16, .f32⟩
  | .hbm, ⟨66, _⟩ => ⟨S_, .f32⟩
  | .hbm, ⟨67, _⟩ => ⟨S200000x16, .f32⟩
  | .hbm, ⟨68, _⟩ => ⟨S200000x16, .f32⟩
  | .hbm, ⟨69, _⟩ => ⟨S200000x6, .f32⟩
  | .hbm, ⟨70, _⟩ => ⟨S_, .i32⟩
  | .hbm, ⟨71, _⟩ => ⟨S6600000, .i32⟩
  | .hbm, ⟨72, _⟩ => ⟨S6600000, .i1⟩
  | .hbm, ⟨73, _⟩ => ⟨S_, .i32⟩
  | .hbm, ⟨74, _⟩ => ⟨S6600000, .i32⟩
  | .hbm, ⟨75, _⟩ => ⟨S6600000, .i32⟩
  | .hbm, ⟨76, _⟩ => ⟨S6600000, .i32⟩
  | .hbm, ⟨77, _⟩ => ⟨S6600000x1, .i32⟩
  | .hbm, ⟨78, _⟩ => ⟨S6600000x6, .f32⟩
  | .hbm, ⟨79, _⟩ => ⟨S6600000x1, .f32⟩
  | .hbm, ⟨80, _⟩ => ⟨S6600000x6, .f32⟩
  | .hbm, ⟨81, _⟩ => ⟨S6600000x6, .f32⟩
  | .hbm, ⟨82, _⟩ => ⟨S_, .f32⟩
  | .hbm, ⟨83, _⟩ => ⟨S200000x6, .f32⟩
  | .hbm, ⟨84, _⟩ => ⟨S6600000x1, .i32⟩
  | .hbm, ⟨85, _⟩ => ⟨S200000x6, .f32⟩
  | .hbm, ⟨86, _⟩ => ⟨S1x6, .f32⟩
  | .hbm, ⟨87, _⟩ => ⟨S200000x6, .f32⟩
  | .hbm, ⟨88, _⟩ => ⟨S200000x6, .f32⟩
  | .hbm, ⟨89, _⟩ => ⟨S_, .f32⟩
  | .hbm, ⟨90, _⟩ => ⟨S200000, .f32⟩
  | .hbm, ⟨91, _⟩ => ⟨S_, .f32⟩
  | .hbm, ⟨92, _⟩ => ⟨S200000, .f32⟩
  | .hbm, ⟨93, _⟩ => ⟨S200000, .f32⟩
  | .hbm, ⟨94, _⟩ => ⟨S200000x1, .f32⟩
  | .hbm, ⟨95, _⟩ => ⟨S200000x6, .f32⟩
  | .hbm, ⟨96, _⟩ => ⟨S200000x6, .f32⟩
  | .hbm, ⟨97, _⟩ => ⟨S200000x6, .f32⟩
  | .hbm, ⟨98, _⟩ => ⟨S_, .f32⟩
  | .hbm, ⟨99, _⟩ => ⟨S200000, .f32⟩
  | .hbm, ⟨100, _⟩ => ⟨S200000x1, .f32⟩
  | .hbm, ⟨101, _⟩ => ⟨S200000x1, .f32⟩
  | .hbm, ⟨102, _⟩ => ⟨S200000x6, .f32⟩
  | .hbm, ⟨103, _⟩ => ⟨S200000x6, .f32⟩
  | _, _ => ⟨S200000x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x6_0_1 : S6600000x1.BroadcastsInDim S6600000x6 (![0, 1] : Fin 2 → Fin S6600000x6.rank)
  bcast_S_S200000x6 : S_.BroadcastsInDim S200000x6 (![] : Fin 0 → Fin S200000x6.rank)
  bcast_S6_S1x6_1 : S6.BroadcastsInDim S1x6 (![1] : Fin 1 → Fin S1x6.rank)
  bcast_S1x6_S200000x6_0_1 : S1x6.BroadcastsInDim S200000x6 (![0, 1] : Fin 2 → Fin S200000x6.rank)
  reducesTo_S200000x6_S200000_d1 : S200000x6.ReducesTo [1] S200000
  h_S_ : 0 < S_.numel
  bcast_S200000_S200000x1_0 : S200000.BroadcastsInDim S200000x1 (![0] : Fin 1 → Fin S200000x1.rank)
  bcast_S200000x1_S200000x6_0_1 : S200000x1.BroadcastsInDim S200000x6 (![0, 1] : Fin 2 → Fin S200000x6.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x21_S21x16_S200000x16_1_0_0_1_n_n_wf : DotDims.WF S200000x21 S21x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x6_S200000x6_1_0_0_1_n_n_wf : DotDims.WF S200000x16 S16x6 S200000x6 [1] [0] [0] [1] [] []
  gather_S200000x6_S6600000x1_S6600000x6_1_0_n_n_0_1_16_wf : GatherDims.WF S200000x6 S6600000x1 S6600000x6 [1] [0] [] [0] [] 1 ![1, 6]
  scatter_S200000x6_S6600000x1_S6600000x6_1_0_0_1_wf : ScatterDims.WF S200000x6 S6600000x1 S6600000x6 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x21_S21x16_S200000x16_1_0_0_1_n_n : DotDims S200000x21 S21x16 S200000x16 where
  lhsContracting := [1]
  rhsContracting := [0]
  lhsNonContracting := [0]
  rhsNonContracting := [1]
  lhsBatch := []
  rhsBatch := []
  wf := dot_S200000x21_S21x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x6_S200000x6_1_0_0_1_n_n : DotDims S200000x16 S16x6 S200000x6 where
  lhsContracting := [1]
  rhsContracting := [0]
  lhsNonContracting := [0]
  rhsNonContracting := [1]
  lhsBatch := []
  rhsBatch := []
  wf := dot_S200000x16_S16x6_S200000x6_1_0_0_1_n_n_wf
def gather_S200000x6_S6600000x1_S6600000x6_1_0_n_n_0_1_16 : GatherDims S200000x6 S6600000x1 S6600000x6 where
  offsetDims := [1]
  collapsedSliceDims := [0]
  operandBatchingDims := []
  startIndicesBatchingDims := []
  startIndexMap := [0]
  indexVectorDim := 1
  sliceSizes := ![1, 6]
  wf := gather_S200000x6_S6600000x1_S6600000x6_1_0_n_n_0_1_16_wf
def scatter_S200000x6_S6600000x1_S6600000x6_1_0_0_1 : ScatterDims S200000x6 S6600000x1 S6600000x6 where
  updateWindowDims := [1]
  insertedWindowDims := [0]
  scatterDimsToOperandDims := [0]
  indexVectorDim := 1
  wf := scatter_S200000x6_S6600000x1_S6600000x6_1_0_0_1_wf

class Facts : Prop extends Facts₀ where

variable [Facts]
-- ==== Proof.ReferenceRun.lean ====
/-
  The reference's run, read stage by stage.

  The reference's @main is a line of 98 host operations (the three functions jax outlined, jnp.where, relu and
  log_softmax, stand in their calls' places). Run from any memory, every weakly fair execution ends with each buffer
  at what the operations, applied in order, leave in it. The line is cut into seven stretches, and each stretch is read for an
  arbitrary valuation of the buffers before it: started from buffers that hold the stage values of the arguments, it
  leaves the next stage values. Chained from the launch memory, the result buffer holds the last stage, the log-softmax
  of the second layer, as a function of the six arguments; the arguments themselves are written by no operation.
-/
import proofs.«100570_j33397665694120_1_alg».proof.Proof.Gen.ReferenceIdeal
import proofs.«100570_j33397665694120_1_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## @main as a line of operations, and the line in seven stretches -/

/-- @main's 98 operations, in order. -/
abbrev ops : List (HloOp τ sig (Elt F)) :=
  [ nullary main_v0 (iotaInDim S200000 32 0),
    unary main_arg1 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    binary main_v2 main_v0 main_v3 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    unary main_arg1 main_v4 ((extractStridedSlice S1x6400000 ![1, 0] · slices_S2x6400000_S1x6400000_1_0) : (⟨S2x6400000, .i32⟩ : BufTy).Contents (Elt F) → (⟨S1x6400000, .i32⟩ : BufTy).Contents (Elt F)),
    reshape main_v4 main_v5 rfl shapeCasts_S1x6400000_S6400000,
    binary main_v5 main_v0 main_v6 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    nullary main_cst (constant S_ .f32 0x3F800000#32),
    unary main_cst main_v7 (broadcastInDim S6600000 ![] bcast_S_S6600000 : (⟨S_, .f32⟩ : BufTy).Contents (Elt F) → (⟨S6600000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S6600000x1 ![0] bcast_S6600000_S6600000x1_0 : (⟨S6600000, .i32⟩ : BufTy).Contents (Elt F) → (⟨S6600000x1, .i32⟩ : BufTy).Contents (Elt F)),
    ternary main_v8 main_v9 main_v7 main_v10 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    nullary main_cst_1 (constant S_ .f32 0x00000000#32),
    unary main_cst_1 main_v11 (broadcastInDim S200000 ![] bcast_S_S200000 : (⟨S_, .f32⟩ : BufTy).Contents (Elt F) → (⟨S200000, .f32⟩ : BufTy).Contents (Elt F)),
    binary main_v10 main_v11 main_v12 (cmpf .ogt : (⟨S200000, .f32⟩ : BufTy).Contents (Elt F) → (⟨S200000, .f32⟩ : BufTy).Contents (Elt F) → (⟨S200000, .i1⟩ : BufTy).Contents (Elt F)),
    unary main_v10 main_v13 (Host.rsqrt : (⟨S200000, .f32⟩ : BufTy).Contents (Elt F) → (⟨S200000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v12) (TRef.of (T := ⟨S200000, .f32⟩) main_v13) (TRef.of (T := ⟨S200000, .f32⟩) main_call0_v1) (TRef.of (T := ⟨S200000, .f32⟩) main_v14) select,
    nullary main_c (constantI S_ 32 0#32),
    unary main_c main_v15 (broadcastInDim S6600000 ![] bcast_S_S6600000 : (⟨S_, .i32⟩ : BufTy).Contents (Elt F) → (⟨S6600000, .i32⟩ : BufTy).Contents (Elt F)),
    binary main_v3 main_v15 main_v16 (cmpi .slt : (⟨S6600000, .i32⟩ : BufTy).Contents (Elt F) → (⟨S6600000, .i32⟩ : BufTy).Contents (Elt F) → (⟨S6600000, .i1⟩ : BufTy).Contents (Elt F)),
    nullary main_c_3 (constantI S_ 32 200000#32),
    unary main_c_3 main_v17 (broadcastInDim S6600000 ![] bcast_S_S6600000 : (⟨S_, .i32⟩ : BufTy).Contents (Elt F) → (⟨S6600000, .i32⟩ : BufTy).Contents (Elt F)),
    binary main_v3 main_v17 main_v18 (addi : (⟨S6600000, .i32⟩ : BufTy).Contents (Elt F) → (⟨S6600000, .i32⟩ : BufTy).Contents (Elt F) → (⟨S6600000, .i32⟩ : BufTy).Contents (Elt F)),
    ternary main_v16 main_v18 main_v3 main_v19 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v19 main_v20 (broadcastInDim S6600000x1 ![0] bcast_S6600000_S6600000x1_0 : (⟨S6600000, .i32⟩ : BufTy).Contents (Elt F) → (⟨S6600000x1, .i32⟩ : BufTy).Contents (Elt F)),
    binary main_v14 main_v20 main_v21 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    nullary main_c_4 (constantI S_ 32 0#32),
    unary main_c_4 main_v22 (broadcastInDim S6600000 ![] bcast_S_S6600000 : (⟨S_, .i32⟩ : BufTy).Contents (Elt F) → (⟨S6600000, .i32⟩ : BufTy).Contents (Elt F)),
    binary main_v6 main_v22 main_v23 (cmpi .slt : (⟨S6600000, .i32⟩ : BufTy).Contents (Elt F) → (⟨S6600000, .i32⟩ : BufTy).Contents (Elt F) → (⟨S6600000, .i1⟩ : BufTy).Contents (Elt F)),
    nullary main_c_5 (constantI S_ 32 200000#32),
    unary main_c_5 main_v24 (broadcastInDim S6600000 ![] bcast_S_S6600000 : (⟨S_, .i32⟩ : BufTy).Contents (Elt F) → (⟨S6600000, .i32⟩ : BufTy).Contents (Elt F)),
    binary main_v6 main_v24 main_v25 (addi : (⟨S6600000, .i32⟩ : BufTy).Contents (Elt F) → (⟨S6600000, .i32⟩ : BufTy).Contents (Elt F) → (⟨S6600000, .i32⟩ : BufTy).Contents (Elt F)),
    ternary main_v23 main_v25 main_v6 main_v26 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v26 main_v27 (broadcastInDim S6600000x1 ![0] bcast_S6600000_S6600000x1_0 : (⟨S6600000, .i32⟩ : BufTy).Contents (Elt F) → (⟨S6600000x1, .i32⟩ : BufTy).Contents (Elt F)),
    binary main_v14 main_v27 main_v28 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    binary main_v21 main_v28 main_v29 (mulf : (⟨S6600000, .f32⟩ : BufTy).Contents (Elt F) → (⟨S6600000, .f32⟩ : BufTy).Contents (Elt F) → (⟨S6600000, .f32⟩ : BufTy).Contents (Elt F)),
    binary main_arg0 main_arg2 main_v30 ((fun l r => Host.dotGeneral dot_S200000x21_S21x16_S200000x16_1_0_0_1_n_n none l r) : (⟨S200000x21, .f32⟩ : BufTy).Contents (Elt F) → (⟨S21x16, .f32⟩ : BufTy).Contents (Elt F) → (⟨S200000x16, .f32⟩ : BufTy).Contents (Elt F)),
    nullary main_c_6 (constantI S_ 32 0#32),
    unary main_c_6 main_v31 (broadcastInDim S6600000 ![] bcast_S_S6600000 : (⟨S_, .i32⟩ : BufTy).Contents (Elt F) → (⟨S6600000, .i32⟩ : BufTy).Contents (Elt F)),
    binary main_v3 main_v31 main_v32 (cmpi .slt : (⟨S6600000, .i32⟩ : BufTy).Contents (Elt F) → (⟨S6600000, .i32⟩ : BufTy).Contents (Elt F) → (⟨S6600000, .i1⟩ : BufTy).Contents (Elt F)),
    nullary main_c_7 (constantI S_ 32 200000#32),
    unary main_c_7 main_v33 (broadcastInDim S6600000 ![] bcast_S_S6600000 : (⟨S_, .i32⟩ : BufTy).Contents (Elt F) → (⟨S6600000, .i32⟩ : BufTy).Contents (Elt F)),
    binary main_v3 main_v33 main_v34 (addi : (⟨S6600000, .i32⟩ : BufTy).Contents (Elt F) → (⟨S6600000, .i32⟩ : BufTy).Contents (Elt F) → (⟨S6600000, .i32⟩ : BufTy).Contents (Elt F)),
    ternary main_v32 main_v34 main_v3 main_v35 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v35 main_v36 (broadcastInDim S6600000x1 ![0] bcast_S6600000_S6600000x1_0 : (⟨S6600000, .i32⟩ : BufTy).Contents (Elt F) → (⟨S6600000x1, .i32⟩ : BufTy).Contents (Elt F)),
    binary main_v30 main_v36 main_v37 ((fun x i => Host.gather gather_S200000x16_S6600000x1_S6600000x16_1_0_n_n_0_1_116 x i) : (⟨S200000x16, .f32⟩ : BufTy).Contents (Elt F) → (⟨S6600000x1, .i32⟩ : BufTy).Contents (Elt F) → (⟨S6600000x16, .f32⟩ : BufTy).Contents (Elt F)),
    unary main_v29 main_v38 (broadcastInDim S6600000x1 ![0] bcast_S6600000_S6600000x1_0 : (⟨S6600000, .f32⟩ : BufTy).Contents (Elt F) → (⟨S6600000x1, .f32⟩ : BufTy).Contents (Elt F)),
    unary main_v38 main_v39 (broadcastInDim S6600000x16 ![0, 1] bcast_S6600000x1_S6600000x16_0_1 : (⟨S6600000x1, .f32⟩ : BufTy).Contents (Elt F) → (⟨S6600000x16, .f32⟩ : BufTy).Contents (Elt F)),
    binary main_v37 main_v39 main_v40 (mulf : (⟨S6600000x16, .f32⟩ : BufTy).Contents (Elt F) → (⟨S6600000x16, .f32⟩ : BufTy).Contents (Elt F) → (⟨S6600000x16, .f32⟩ : BufTy).Contents (Elt F)),
    nullary main_cst_8 (constant S_ .f32 0x00000000#32),
    unary main_cst_8 main_v41 (broadcastInDim S200000x16 ![] bcast_S_S200000x16 : (⟨S_, .f32⟩ : BufTy).Contents (Elt F) → (⟨S200000x16, .f32⟩ : BufTy).Contents (Elt F)),
    unary main_v6 main_v42 (broadcastInDim S6600000x1 ![0] bcast_S6600000_S6600000x1_0 : (⟨S6600000, .i32⟩ : BufTy).Contents (Elt F) → (⟨S6600000x1, .i32⟩ : BufTy).Contents (Elt F)),
    ternary main_v41 main_v42 main_v40 main_v43 ((fun x i u => Host.scatterAdd scatter_S200000x16_S6600000x1_S6600000x16_1_0_0_1 x i u) : (⟨S200000x16, .f32⟩ : BufTy).Contents (Elt F) → (⟨S6600000x1, .i32⟩ : BufTy).Contents (Elt F) → (⟨S6600000x16, .f32⟩ : BufTy).Contents (Elt F) → (⟨S200000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S200000x16 ![0, 1] bcast_S1x16_S200000x16_0_1 : (⟨S1x16, .f32⟩ : BufTy).Contents (Elt F) → (⟨S200000x16, .f32⟩ : BufTy).Contents (Elt F)),
    binary main_v43 main_v45 main_v46 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x16, .f32⟩) main_call1_v0) (broadcastInDim S200000x16 ![] bcast_S_S200000x16),
    TRef.binary (TRef.of (T := ⟨S200000x16, .f32⟩) main_v46) (TRef.of (T := ⟨S200000x16, .f32⟩) main_call1_v0) (TRef.of (T := ⟨S200000x16, .f32⟩) main_v47) maximumf,
    binary main_v47 main_arg4 main_v48 ((fun l r => Host.dotGeneral dot_S200000x16_S16x6_S200000x6_1_0_0_1_n_n none l r) : (⟨S200000x16, .f32⟩ : BufTy).Contents (Elt F) → (⟨S16x6, .f32⟩ : BufTy).Contents (Elt F) → (⟨S200000x6, .f32⟩ : BufTy).Contents (Elt F)),
    nullary main_c_9 (constantI S_ 32 0#32),
    unary main_c_9 main_v49 (broadcastInDim S6600000 ![] bcast_S_S6600000 : (⟨S_, .i32⟩ : BufTy).Contents (Elt F) → (⟨S6600000, .i32⟩ : BufTy).Contents (Elt F)),
    binary main_v3 main_v49 main_v50 (cmpi .slt : (⟨S6600000, .i32⟩ : BufTy).Contents (Elt F) → (⟨S6600000, .i32⟩ : BufTy).Contents (Elt F) → (⟨S6600000, .i1⟩ : BufTy).Contents (Elt F)),
    nullary main_c_10 (constantI S_ 32 200000#32),
    unary main_c_10 main_v51 (broadcastInDim S6600000 ![] bcast_S_S6600000 : (⟨S_, .i32⟩ : BufTy).Contents (Elt F) → (⟨S6600000, .i32⟩ : BufTy).Contents (Elt F)),
    binary main_v3 main_v51 main_v52 (addi : (⟨S6600000, .i32⟩ : BufTy).Contents (Elt F) → (⟨S6600000, .i32⟩ : BufTy).Contents (Elt F) → (⟨S6600000, .i32⟩ : BufTy).Contents (Elt F)),
    ternary main_v50 main_v52 main_v3 main_v53 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v53 main_v54 (broadcastInDim S6600000x1 ![0] bcast_S6600000_S6600000x1_0 : (⟨S6600000, .i32⟩ : BufTy).Contents (Elt F) → (⟨S6600000x1, .i32⟩ : BufTy).Contents (Elt F)),
    binary main_v48 main_v54 main_v55 ((fun x i => Host.gather gather_S200000x6_S6600000x1_S6600000x6_1_0_n_n_0_1_16 x i) : (⟨S200000x6, .f32⟩ : BufTy).Contents (Elt F) → (⟨S6600000x1, .i32⟩ : BufTy).Contents (Elt F) → (⟨S6600000x6, .f32⟩ : BufTy).Contents (Elt F)),
    unary main_v29 main_v56 (broadcastInDim S6600000x1 ![0] bcast_S6600000_S6600000x1_0 : (⟨S6600000, .f32⟩ : BufTy).Contents (Elt F) → (⟨S6600000x1, .f32⟩ : BufTy).Contents (Elt F)),
    unary main_v56 main_v57 (broadcastInDim S6600000x6 ![0, 1] bcast_S6600000x1_S6600000x6_0_1 : (⟨S6600000x1, .f32⟩ : BufTy).Contents (Elt F) → (⟨S6600000x6, .f32⟩ : BufTy).Contents (Elt F)),
    binary main_v55 main_v57 main_v58 (mulf : (⟨S6600000x6, .f32⟩ : BufTy).Contents (Elt F) → (⟨S6600000x6, .f32⟩ : BufTy).Contents (Elt F) → (⟨S6600000x6, .f32⟩ : BufTy).Contents (Elt F)),
    nullary main_cst_11 (constant S_ .f32 0x00000000#32),
    unary main_cst_11 main_v59 (broadcastInDim S200000x6 ![] bcast_S_S200000x6 : (⟨S_, .f32⟩ : BufTy).Contents (Elt F) → (⟨S200000x6, .f32⟩ : BufTy).Contents (Elt F)),
    unary main_v6 main_v60 (broadcastInDim S6600000x1 ![0] bcast_S6600000_S6600000x1_0 : (⟨S6600000, .i32⟩ : BufTy).Contents (Elt F) → (⟨S6600000x1, .i32⟩ : BufTy).Contents (Elt F)),
    ternary main_v59 main_v60 main_v58 main_v61 ((fun x i u => Host.scatterAdd scatter_S200000x6_S6600000x1_S6600000x6_1_0_0_1 x i u) : (⟨S200000x6, .f32⟩ : BufTy).Contents (Elt F) → (⟨S6600000x1, .i32⟩ : BufTy).Contents (Elt F) → (⟨S6600000x6, .f32⟩ : BufTy).Contents (Elt F) → (⟨S200000x6, .f32⟩ : BufTy).Contents (Elt F)),
    unary main_arg5 main_v62 (broadcastInDim S1x6 ![1] bcast_S6_S1x6_1 : (⟨S6, .f32⟩ : BufTy).Contents (Elt F) → (⟨S1x6, .f32⟩ : BufTy).Contents (Elt F)),
    unary main_v62 main_v63 (broadcastInDim S200000x6 ![0, 1] bcast_S1x6_S200000x6_0_1 : (⟨S1x6, .f32⟩ : BufTy).Contents (Elt F) → (⟨S200000x6, .f32⟩ : BufTy).Contents (Elt F)),
    binary main_v61 main_v63 main_v64 (addf : (⟨S200000x6, .f32⟩ : BufTy).Contents (Elt F) → (⟨S200000x6, .f32⟩ : BufTy).Contents (Elt F) → (⟨S200000x6, .f32⟩ : BufTy).Contents (Elt F)),
    TRef.nullary (TRef.of (T := ⟨S_, .f32⟩) main_call2_cst) (constant S_ .f32 0xFF800000#32),
    TRef.binary (TRef.of (T := ⟨S200000x6, .f32⟩) main_v64) (TRef.of (T := ⟨S_, .f32⟩) main_call2_cst) (TRef.of (T := ⟨S200000, .f32⟩) main_call2_v0) (fun x v => Host.reduce FloatOps.maximumf x v reducesTo_S200000x6_S200000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S200000, .f32⟩) main_call2_v1) (broadcastInDim S200000 ![] bcast_S_S200000),
    TRef.binary (TRef.of (T := ⟨S200000, .f32⟩) main_call2_v1) (TRef.of (T := ⟨S200000, .f32⟩) main_call2_v0) (TRef.of (T := ⟨S200000, .f32⟩) main_call2_v2) maximumf,
    TRef.unary (TRef.of (T := ⟨S200000, .f32⟩) main_call2_v2) (TRef.of (T := ⟨S200000x1, .f32⟩) main_call2_v3) (broadcastInDim S200000x1 ![0] bcast_S200000_S200000x1_0),
    TRef.unary (TRef.of (T := ⟨S200000x1, .f32⟩) main_call2_v3) (TRef.of (T := ⟨S200000x6, .f32⟩) main_call2_v4) (broadcastInDim S200000x6 ![0, 1] bcast_S200000x1_S200000x6_0_1),
    TRef.binary (TRef.of (T := ⟨S200000x6, .f32⟩) main_v64) (TRef.of (T := ⟨S200000x6, .f32⟩) main_call2_v4) (TRef.of (T := ⟨S200000x6, .f32⟩) main_call2_v5) subf,
    TRef.unary (TRef.of (T := ⟨S200000x6, .f32⟩) main_call2_v5) (TRef.of (T := ⟨S200000x6, .f32⟩) main_call2_v6) Host.exp,
    TRef.nullary (TRef.of (T := ⟨S_, .f32⟩) main_call2_cst_1) (constant S_ .f32 0x00000000#32),
    TRef.binary (TRef.of (T := ⟨S200000x6, .f32⟩) main_call2_v6) (TRef.of (T := ⟨S_, .f32⟩) main_call2_cst_1) (TRef.of (T := ⟨S200000, .f32⟩) main_call2_v7) (fun x v => Host.reduceAdd x v reducesTo_S200000x6_S200000_d1 h_S_),
    TRef.unary (TRef.of (T := ⟨S200000, .f32⟩) main_call2_v7) (TRef.of (T := ⟨S200000x1, .f32⟩) main_call2_v8) (broadcastInDim S200000x1 ![0] bcast_S200000_S200000x1_0),
    TRef.unary (TRef.of (T := ⟨S200000x1, .f32⟩) main_call2_v8) (TRef.of (T := ⟨S200000x1, .f32⟩) main_call2_v9) Host.log,
    TRef.unary (TRef.of (T := ⟨S200000x1, .f32⟩) main_call2_v9) (TRef.of (T := ⟨S200000x6, .f32⟩) main_call2_v10) (broadcastInDim S200000x6 ![0, 1] bcast_S200000x1_S200000x6_0_1),
    TRef.binary (TRef.of (T := ⟨S200000x6, .f32⟩) main_call2_v5) (TRef.of (T := ⟨S200000x6, .f32⟩) main_call2_v10) (TRef.of (T := ⟨S200000x6, .f32⟩) main_v65) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Operations 1 … 18 of @main: the edge lists with self-loops, the degrees and their inverse square roots. -/
abbrev ops0 : List (HloOp τ sig (Elt F)) :=
  [ nullary main_v0 (iotaInDim S200000 32 0),
    unary main_arg1 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    binary main_v2 main_v0 main_v3 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    unary main_arg1 main_v4 ((extractStridedSlice S1x6400000 ![1, 0] · slices_S2x6400000_S1x6400000_1_0) : (⟨S2x6400000, .i32⟩ : BufTy).Contents (Elt F) → (⟨S1x6400000, .i32⟩ : BufTy).Contents (Elt F)),
    reshape main_v4 main_v5 rfl shapeCasts_S1x6400000_S6400000,
    binary main_v5 main_v0 main_v6 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    nullary main_cst (constant S_ .f32 0x3F800000#32),
    unary main_cst main_v7 (broadcastInDim S6600000 ![] bcast_S_S6600000 : (⟨S_, .f32⟩ : BufTy).Contents (Elt F) → (⟨S6600000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S6600000x1 ![0] bcast_S6600000_S6600000x1_0 : (⟨S6600000, .i32⟩ : BufTy).Contents (Elt F) → (⟨S6600000x1, .i32⟩ : BufTy).Contents (Elt F)),
    ternary main_v8 main_v9 main_v7 main_v10 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    nullary main_cst_1 (constant S_ .f32 0x00000000#32),
    unary main_cst_1 main_v11 (broadcastInDim S200000 ![] bcast_S_S200000 : (⟨S_, .f32⟩ : BufTy).Contents (Elt F) → (⟨S200000, .f32⟩ : BufTy).Contents (Elt F)),
    binary main_v10 main_v11 main_v12 (cmpf .ogt : (⟨S200000, .f32⟩ : BufTy).Contents (Elt F) → (⟨S200000, .f32⟩ : BufTy).Contents (Elt F) → (⟨S200000, .i1⟩ : BufTy).Contents (Elt F)),
    unary main_v10 main_v13 (Host.rsqrt : (⟨S200000, .f32⟩ : BufTy).Contents (Elt F) → (⟨S200000, .f32⟩ : BufTy).Contents (Elt F)),
    nullary main_cst_2 (constant S_ .f32 0x00000000#32) ]

/-- Operations 19 … 21 of @main: the per-node factor (jnp.where's three operations). -/
abbrev ops1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v12) (TRef.of (T := ⟨S200000, .f32⟩) main_v13) (TRef.of (T := ⟨S200000, .f32⟩) main_call0_v1) (TRef.of (T := ⟨S200000, .f32⟩) main_v14) select ]

/-- Operations 22 … 40 of @main: the edge weights. -/
abbrev ops2 : List (HloOp τ sig (Elt F)) :=
  [ nullary main_c (constantI S_ 32 0#32),
    unary main_c main_v15 (broadcastInDim S6600000 ![] bcast_S_S6600000 : (⟨S_, .i32⟩ : BufTy).Contents (Elt F) → (⟨S6600000, .i32⟩ : BufTy).Contents (Elt F)),
    binary main_v3 main_v15 main_v16 (cmpi .slt : (⟨S6600000, .i32⟩ : BufTy).Contents (Elt F) → (⟨S6600000, .i32⟩ : BufTy).Contents (Elt F) → (⟨S6600000, .i1⟩ : BufTy).Contents (Elt F)),
    nullary main_c_3 (constantI S_ 32 200000#32),
    unary main_c_3 main_v17 (broadcastInDim S6600000 ![] bcast_S_S6600000 : (⟨S_, .i32⟩ : BufTy).Contents (Elt F) → (⟨S6600000, .i32⟩ : BufTy).Contents (Elt F)),
    binary main_v3 main_v17 main_v18 (addi : (⟨S6600000, .i32⟩ : BufTy).Contents (Elt F) → (⟨S6600000, .i32⟩ : BufTy).Contents (Elt F) → (⟨S6600000, .i32⟩ : BufTy).Contents (Elt F)),
    ternary main_v16 main_v18 main_v3 main_v19 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v19 main_v20 (broadcastInDim S6600000x1 ![0] bcast_S6600000_S6600000x1_0 : (⟨S6600000, .i32⟩ : BufTy).Contents (Elt F) → (⟨S6600000x1, .i32⟩ : BufTy).Contents (Elt F)),
    binary main_v14 main_v20 main_v21 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    nullary main_c_4 (constantI S_ 32 0#32),
    unary main_c_4 main_v22 (broadcastInDim S6600000 ![] bcast_S_S6600000 : (⟨S_, .i32⟩ : BufTy).Contents (Elt F) → (⟨S6600000, .i32⟩ : BufTy).Contents (Elt F)),
    binary main_v6 main_v22 main_v23 (cmpi .slt : (⟨S6600000, .i32⟩ : BufTy).Contents (Elt F) → (⟨S6600000, .i32⟩ : BufTy).Contents (Elt F) → (⟨S6600000, .i1⟩ : BufTy).Contents (Elt F)),
    nullary main_c_5 (constantI S_ 32 200000#32),
    unary main_c_5 main_v24 (broadcastInDim S6600000 ![] bcast_S_S6600000 : (⟨S_, .i32⟩ : BufTy).Contents (Elt F) → (⟨S6600000, .i32⟩ : BufTy).Contents (Elt F)),
    binary main_v6 main_v24 main_v25 (addi : (⟨S6600000, .i32⟩ : BufTy).Contents (Elt F) → (⟨S6600000, .i32⟩ : BufTy).Contents (Elt F) → (⟨S6600000, .i32⟩ : BufTy).Contents (Elt F)),
    ternary main_v23 main_v25 main_v6 main_v26 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v26 main_v27 (broadcastInDim S6600000x1 ![0] bcast_S6600000_S6600000x1_0 : (⟨S6600000, .i32⟩ : BufTy).Contents (Elt F) → (⟨S6600000x1, .i32⟩ : BufTy).Contents (Elt F)),
    binary main_v14 main_v27 main_v28 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    binary main_v21 main_v28 main_v29 (mulf : (⟨S6600000, .f32⟩ : BufTy).Contents (Elt F) → (⟨S6600000, .f32⟩ : BufTy).Contents (Elt F) → (⟨S6600000, .f32⟩ : BufTy).Contents (Elt F)) ]

/-- Operations 41 … 57 of @main: the first projection and its aggregation along the edges. -/
abbrev ops3 : List (HloOp τ sig (Elt F)) :=
  [ binary main_arg0 main_arg2 main_v30 ((fun l r => Host.dotGeneral dot_S200000x21_S21x16_S200000x16_1_0_0_1_n_n none l r) : (⟨S200000x21, .f32⟩ : BufTy).Contents (Elt F) → (⟨S21x16, .f32⟩ : BufTy).Contents (Elt F) → (⟨S200000x16, .f32⟩ : BufTy).Contents (Elt F)),
    nullary main_c_6 (constantI S_ 32 0#32),
    unary main_c_6 main_v31 (broadcastInDim S6600000 ![] bcast_S_S6600000 : (⟨S_, .i32⟩ : BufTy).Contents (Elt F) → (⟨S6600000, .i32⟩ : BufTy).Contents (Elt F)),
    binary main_v3 main_v31 main_v32 (cmpi .slt : (⟨S6600000, .i32⟩ : BufTy).Contents (Elt F) → (⟨S6600000, .i32⟩ : BufTy).Contents (Elt F) → (⟨S6600000, .i1⟩ : BufTy).Contents (Elt F)),
    nullary main_c_7 (constantI S_ 32 200000#32),
    unary main_c_7 main_v33 (broadcastInDim S6600000 ![] bcast_S_S6600000 : (⟨S_, .i32⟩ : BufTy).Contents (Elt F) → (⟨S6600000, .i32⟩ : BufTy).Contents (Elt F)),
    binary main_v3 main_v33 main_v34 (addi : (⟨S6600000, .i32⟩ : BufTy).Contents (Elt F) → (⟨S6600000, .i32⟩ : BufTy).Contents (Elt F) → (⟨S6600000, .i32⟩ : BufTy).Contents (Elt F)),
    ternary main_v32 main_v34 main_v3 main_v35 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v35 main_v36 (broadcastInDim S6600000x1 ![0] bcast_S6600000_S6600000x1_0 : (⟨S6600000, .i32⟩ : BufTy).Contents (Elt F) → (⟨S6600000x1, .i32⟩ : BufTy).Contents (Elt F)),
    binary main_v30 main_v36 main_v37 ((fun x i => Host.gather gather_S200000x16_S6600000x1_S6600000x16_1_0_n_n_0_1_116 x i) : (⟨S200000x16, .f32⟩ : BufTy).Contents (Elt F) → (⟨S6600000x1, .i32⟩ : BufTy).Contents (Elt F) → (⟨S6600000x16, .f32⟩ : BufTy).Contents (Elt F)),
    unary main_v29 main_v38 (broadcastInDim S6600000x1 ![0] bcast_S6600000_S6600000x1_0 : (⟨S6600000, .f32⟩ : BufTy).Contents (Elt F) → (⟨S6600000x1, .f32⟩ : BufTy).Contents (Elt F)),
    unary main_v38 main_v39 (broadcastInDim S6600000x16 ![0, 1] bcast_S6600000x1_S6600000x16_0_1 : (⟨S6600000x1, .f32⟩ : BufTy).Contents (Elt F) → (⟨S6600000x16, .f32⟩ : BufTy).Contents (Elt F)),
    binary main_v37 main_v39 main_v40 (mulf : (⟨S6600000x16, .f32⟩ : BufTy).Contents (Elt F) → (⟨S6600000x16, .f32⟩ : BufTy).Contents (Elt F) → (⟨S6600000x16, .f32⟩ : BufTy).Contents (Elt F)),
    nullary main_cst_8 (constant S_ .f32 0x00000000#32),
    unary main_cst_8 main_v41 (broadcastInDim S200000x16 ![] bcast_S_S200000x16 : (⟨S_, .f32⟩ : BufTy).Contents (Elt F) → (⟨S200000x16, .f32⟩ : BufTy).Contents (Elt F)),
    unary main_v6 main_v42 (broadcastInDim S6600000x1 ![0] bcast_S6600000_S6600000x1_0 : (⟨S6600000, .i32⟩ : BufTy).Contents (Elt F) → (⟨S6600000x1, .i32⟩ : BufTy).Contents (Elt F)),
    ternary main_v41 main_v42 main_v40 main_v43 ((fun x i u => Host.scatterAdd scatter_S200000x16_S6600000x1_S6600000x16_1_0_0_1 x i u) : (⟨S200000x16, .f32⟩ : BufTy).Contents (Elt F) → (⟨S6600000x1, .i32⟩ : BufTy).Contents (Elt F) → (⟨S6600000x16, .f32⟩ : BufTy).Contents (Elt F) → (⟨S200000x16, .f32⟩ : BufTy).Contents (Elt F)) ]

/-- Operations 58 … 63 of @main: the first bias and the relu. -/
abbrev ops4 : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S200000x16 ![0, 1] bcast_S1x16_S200000x16_0_1 : (⟨S1x16, .f32⟩ : BufTy).Contents (Elt F) → (⟨S200000x16, .f32⟩ : BufTy).Contents (Elt F)),
    binary main_v43 main_v45 main_v46 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x16, .f32⟩) main_call1_v0) (broadcastInDim S200000x16 ![] bcast_S_S200000x16),
    TRef.binary (TRef.of (T := ⟨S200000x16, .f32⟩) main_v46) (TRef.of (T := ⟨S200000x16, .f32⟩) main_call1_v0) (TRef.of (T := ⟨S200000x16, .f32⟩) main_v47) maximumf ]

/-- Operations 64 … 80 of @main: the second projection and its aggregation along the edges. -/
abbrev ops5 : List (HloOp τ sig (Elt F)) :=
  [ binary main_v47 main_arg4 main_v48 ((fun l r => Host.dotGeneral dot_S200000x16_S16x6_S200000x6_1_0_0_1_n_n none l r) : (⟨S200000x16, .f32⟩ : BufTy).Contents (Elt F) → (⟨S16x6, .f32⟩ : BufTy).Contents (Elt F) → (⟨S200000x6, .f32⟩ : BufTy).Contents (Elt F)),
    nullary main_c_9 (constantI S_ 32 0#32),
    unary main_c_9 main_v49 (broadcastInDim S6600000 ![] bcast_S_S6600000 : (⟨S_, .i32⟩ : BufTy).Contents (Elt F) → (⟨S6600000, .i32⟩ : BufTy).Contents (Elt F)),
    binary main_v3 main_v49 main_v50 (cmpi .slt : (⟨S6600000, .i32⟩ : BufTy).Contents (Elt F) → (⟨S6600000, .i32⟩ : BufTy).Contents (Elt F) → (⟨S6600000, .i1⟩ : BufTy).Contents (Elt F)),
    nullary main_c_10 (constantI S_ 32 200000#32),
    unary main_c_10 main_v51 (broadcastInDim S6600000 ![] bcast_S_S6600000 : (⟨S_, .i32⟩ : BufTy).Contents (Elt F) → (⟨S6600000, .i32⟩ : BufTy).Contents (Elt F)),
    binary main_v3 main_v51 main_v52 (addi : (⟨S6600000, .i32⟩ : BufTy).Contents (Elt F) → (⟨S6600000, .i32⟩ : BufTy).Contents (Elt F) → (⟨S6600000, .i32⟩ : BufTy).Contents (Elt F)),
    ternary main_v50 main_v52 main_v3 main_v53 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v53 main_v54 (broadcastInDim S6600000x1 ![0] bcast_S6600000_S6600000x1_0 : (⟨S6600000, .i32⟩ : BufTy).Contents (Elt F) → (⟨S6600000x1, .i32⟩ : BufTy).Contents (Elt F)),
    binary main_v48 main_v54 main_v55 ((fun x i => Host.gather gather_S200000x6_S6600000x1_S6600000x6_1_0_n_n_0_1_16 x i) : (⟨S200000x6, .f32⟩ : BufTy).Contents (Elt F) → (⟨S6600000x1, .i32⟩ : BufTy).Contents (Elt F) → (⟨S6600000x6, .f32⟩ : BufTy).Contents (Elt F)),
    unary main_v29 main_v56 (broadcastInDim S6600000x1 ![0] bcast_S6600000_S6600000x1_0 : (⟨S6600000, .f32⟩ : BufTy).Contents (Elt F) → (⟨S6600000x1, .f32⟩ : BufTy).Contents (Elt F)),
    unary main_v56 main_v57 (broadcastInDim S6600000x6 ![0, 1] bcast_S6600000x1_S6600000x6_0_1 : (⟨S6600000x1, .f32⟩ : BufTy).Contents (Elt F) → (⟨S6600000x6, .f32⟩ : BufTy).Contents (Elt F)),
    binary main_v55 main_v57 main_v58 (mulf : (⟨S6600000x6, .f32⟩ : BufTy).Contents (Elt F) → (⟨S6600000x6, .f32⟩ : BufTy).Contents (Elt F) → (⟨S6600000x6, .f32⟩ : BufTy).Contents (Elt F)),
    nullary main_cst_11 (constant S_ .f32 0x00000000#32),
    unary main_cst_11 main_v59 (broadcastInDim S200000x6 ![] bcast_S_S200000x6 : (⟨S_, .f32⟩ : BufTy).Contents (Elt F) → (⟨S200000x6, .f32⟩ : BufTy).Contents (Elt F)),
    unary main_v6 main_v60 (broadcastInDim S6600000x1 ![0] bcast_S6600000_S6600000x1_0 : (⟨S6600000, .i32⟩ : BufTy).Contents (Elt F) → (⟨S6600000x1, .i32⟩ : BufTy).Contents (Elt F)),
    ternary main_v59 main_v60 main_v58 main_v61 ((fun x i u => Host.scatterAdd scatter_S200000x6_S6600000x1_S6600000x6_1_0_0_1 x i u) : (⟨S200000x6, .f32⟩ : BufTy).Contents (Elt F) → (⟨S6600000x1, .i32⟩ : BufTy).Contents (Elt F) → (⟨S6600000x6, .f32⟩ : BufTy).Contents (Elt F) → (⟨S200000x6, .f32⟩ : BufTy).Contents (Elt F)) ]

/-- Operations 81 … 98 of @main: the second bias and the log-softmax. -/
abbrev ops6 : List (HloOp τ sig (Elt F)) :=
  [ unary main_arg5 main_v62 (broadcastInDim S1x6 ![1] bcast_S6_S1x6_1 : (⟨S6, .f32⟩ : BufTy).Contents (Elt F) → (⟨S1x6, .f32⟩ : BufTy).Contents (Elt F)),
    unary main_v62 main_v63 (broadcastInDim S200000x6 ![0, 1] bcast_S1x6_S200000x6_0_1 : (⟨S1x6, .f32⟩ : BufTy).Contents (Elt F) → (⟨S200000x6, .f32⟩ : BufTy).Contents (Elt F)),
    binary main_v61 main_v63 main_v64 (addf : (⟨S200000x6, .f32⟩ : BufTy).Contents (Elt F) → (⟨S200000x6, .f32⟩ : BufTy).Contents (Elt F) → (⟨S200000x6, .f32⟩ : BufTy).Contents (Elt F)),
    TRef.nullary (TRef.of (T := ⟨S_, .f32⟩) main_call2_cst) (constant S_ .f32 0xFF800000#32),
    TRef.binary (TRef.of (T := ⟨S200000x6, .f32⟩) main_v64) (TRef.of (T := ⟨S_, .f32⟩) main_call2_cst) (TRef.of (T := ⟨S200000, .f32⟩) main_call2_v0) (fun x v => Host.reduce FloatOps.maximumf x v reducesTo_S200000x6_S200000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S200000, .f32⟩) main_call2_v1) (broadcastInDim S200000 ![] bcast_S_S200000),
    TRef.binary (TRef.of (T := ⟨S200000, .f32⟩) main_call2_v1) (TRef.of (T := ⟨S200000, .f32⟩) main_call2_v0) (TRef.of (T := ⟨S200000, .f32⟩) main_call2_v2) maximumf,
    TRef.unary (TRef.of (T := ⟨S200000, .f32⟩) main_call2_v2) (TRef.of (T := ⟨S200000x1, .f32⟩) main_call2_v3) (broadcastInDim S200000x1 ![0] bcast_S200000_S200000x1_0),
    TRef.unary (TRef.of (T := ⟨S200000x1, .f32⟩) main_call2_v3) (TRef.of (T := ⟨S200000x6, .f32⟩) main_call2_v4) (broadcastInDim S200000x6 ![0, 1] bcast_S200000x1_S200000x6_0_1),
    TRef.binary (TRef.of (T := ⟨S200000x6, .f32⟩) main_v64) (TRef.of (T := ⟨S200000x6, .f32⟩) main_call2_v4) (TRef.of (T := ⟨S200000x6, .f32⟩) main_call2_v5) subf,
    TRef.unary (TRef.of (T := ⟨S200000x6, .f32⟩) main_call2_v5) (TRef.of (T := ⟨S200000x6, .f32⟩) main_call2_v6) Host.exp,
    TRef.nullary (TRef.of (T := ⟨S_, .f32⟩) main_call2_cst_1) (constant S_ .f32 0x00000000#32),
    TRef.binary (TRef.of (T := ⟨S200000x6, .f32⟩) main_call2_v6) (TRef.of (T := ⟨S_, .f32⟩) main_call2_cst_1) (TRef.of (T := ⟨S200000, .f32⟩) main_call2_v7) (fun x v => Host.reduceAdd x v reducesTo_S200000x6_S200000_d1 h_S_),
    TRef.unary (TRef.of (T := ⟨S200000, .f32⟩) main_call2_v7) (TRef.of (T := ⟨S200000x1, .f32⟩) main_call2_v8) (broadcastInDim S200000x1 ![0] bcast_S200000_S200000x1_0),
    TRef.unary (TRef.of (T := ⟨S200000x1, .f32⟩) main_call2_v8) (TRef.of (T := ⟨S200000x1, .f32⟩) main_call2_v9) Host.log,
    TRef.unary (TRef.of (T := ⟨S200000x1, .f32⟩) main_call2_v9) (TRef.of (T := ⟨S200000x6, .f32⟩) main_call2_v10) (broadcastInDim S200000x6 ![0, 1] bcast_S200000x1_S200000x6_0_1),
    TRef.binary (TRef.of (T := ⟨S200000x6, .f32⟩) main_call2_v5) (TRef.of (T := ⟨S200000x6, .f32⟩) main_call2_v10) (TRef.of (T := ⟨S200000x6, .f32⟩) main_v65) subf ]

set_option maxRecDepth 8192 in
/-- The line is its seven stretches, one after the other. -/
theorem ops_split : (ops : List (HloOp τ sig (Elt F))) = ops0 ++ ops1 ++ ops2 ++ ops3 ++ ops4 ++ ops5 ++ ops6 := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A value written through a typed reference and read back through the same reference is the value: the two
    transports along the reference's type equation cancel. -/
theorem ofBuf_toBuf {T : BufTy} (x : TRef sig T) (v : T.Contents (Elt F)) : x.ofBuf (x.toBuf v) = v := by
  simp only [TRef.ofBuf, TRef.toBuf, cast_cast, cast_eq]

/-- A stretch leaves a buffer none of its operations writes as it found it. -/
macro "unwritten_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## Each stretch, from an arbitrary valuation of the buffers before it -/

section Stretches
variable (Wp : Valuation τ sig (Elt F))

theorem sources (x1 : (⟨S2x6400000, .i32⟩ : BufTy).Contents (Elt F)) (h1 : Wp (Proc.devRef .tc main_arg1) = x1) :
    after (ops0 (F := F)) Wp (Proc.devRef .tc main_v3) = val_main_v3 (F := F) x1 := by
  after_results; rw [h1]; rfl
theorem targets (x1 : (⟨S2x6400000, .i32⟩ : BufTy).Contents (Elt F)) (h1 : Wp (Proc.devRef .tc main_arg1) = x1) :
    after (ops0 (F := F)) Wp (Proc.devRef .tc main_v6) = val_main_v6 (F := F) x1 := by
  after_results; rw [h1]; rfl
theorem degree_positive (x1 : (⟨S2x6400000, .i32⟩ : BufTy).Contents (Elt F)) (h1 : Wp (Proc.devRef .tc main_arg1) = x1) :
    after (ops0 (F := F)) Wp (Proc.devRef .tc main_v12) = val_main_v12 (F := F) x1 := by
  after_results; rw [h1]; rfl
theorem degree_rsqrt (x1 : (⟨S2x6400000, .i32⟩ : BufTy).Contents (Elt F)) (h1 : Wp (Proc.devRef .tc main_arg1) = x1) :
    after (ops0 (F := F)) Wp (Proc.devRef .tc main_v13) = val_main_v13 (F := F) x1 := by
  after_results; rw [h1]; rfl
theorem zero_fill : after (ops0 (F := F)) Wp (Proc.devRef .tc main_cst_2) = val_main_cst_2 (F := F) := by
  after_results; rfl

theorem node_factor (x1 : (⟨S2x6400000, .i32⟩ : BufTy).Contents (Elt F)) (h12 : Wp (Proc.devRef .tc main_v12) = val_main_v12 (F := F) x1)
    (h13 : Wp (Proc.devRef .tc main_v13) = val_main_v13 (F := F) x1) (hc : Wp (Proc.devRef .tc main_cst_2) = val_main_cst_2 (F := F)) :
    after (ops1 (F := F)) Wp (Proc.devRef .tc main_v14) = val_main_v14 (F := F) x1 := by
  after_results; rw [h12, h13, hc]; rfl

set_option maxHeartbeats 4000000 in
theorem edge_weights (x1 : (⟨S2x6400000, .i32⟩ : BufTy).Contents (Elt F)) (h3 : Wp (Proc.devRef .tc main_v3) = val_main_v3 (F := F) x1)
    (h6 : Wp (Proc.devRef .tc main_v6) = val_main_v6 (F := F) x1) (h14 : Wp (Proc.devRef .tc main_v14) = val_main_v14 (F := F) x1) :
    after (ops2 (F := F)) Wp (Proc.devRef .tc main_v29) = val_main_v29 (F := F) x1 := by
  after_results; rw [h3, h6, h14]; rfl

set_option maxHeartbeats 4000000 in
theorem aggregate1 (x0 : (⟨S200000x21, .f32⟩ : BufTy).Contents (Elt F)) (x1 : (⟨S2x6400000, .i32⟩ : BufTy).Contents (Elt F)) (x2 : (⟨S21x16, .f32⟩ : BufTy).Contents (Elt F)) (h0 : Wp (Proc.devRef .tc main_arg0) = x0) (h2 : Wp (Proc.devRef .tc main_arg2) = x2)
    (h3 : Wp (Proc.devRef .tc main_v3) = val_main_v3 (F := F) x1) (h6 : Wp (Proc.devRef .tc main_v6) = val_main_v6 (F := F) x1)
    (h29 : Wp (Proc.devRef .tc main_v29) = val_main_v29 (F := F) x1) :
    after (ops3 (F := F)) Wp (Proc.devRef .tc main_v43) = val_main_v43 (F := F) x0 x1 x2 := by
  after_results; rw [h0, h2, h3, h6, h29]; rfl

theorem hidden (x0 : (⟨S200000x21, .f32⟩ : BufTy).Contents (Elt F)) (x1 : (⟨S2x6400000, .i32⟩ : BufTy).Contents (Elt F)) (x2 : (⟨S21x16, .f32⟩ : BufTy).Contents (Elt F)) (x3 : (⟨S16, .f32⟩ : BufTy).Contents (Elt F)) (h43 : Wp (Proc.devRef .tc main_v43) = val_main_v43 (F := F) x0 x1 x2)
    (ha : Wp (Proc.devRef .tc main_arg3) = x3) :
    after (ops4 (F := F)) Wp (Proc.devRef .tc main_v47) = val_main_v47 (F := F) x0 x1 x2 x3 := by
  after_results; rw [h43, ha]; rfl

set_option maxHeartbeats 4000000 in
theorem aggregate2 (x0 : (⟨S200000x21, .f32⟩ : BufTy).Contents (Elt F)) (x1 : (⟨S2x6400000, .i32⟩ : BufTy).Contents (Elt F)) (x2 : (⟨S21x16, .f32⟩ : BufTy).Contents (Elt F)) (x3 : (⟨S16, .f32⟩ : BufTy).Contents (Elt F)) (x4 : (⟨S16x6, .f32⟩ : BufTy).Contents (Elt F)) (h47 : Wp (Proc.devRef .tc main_v47) = val_main_v47 (F := F) x0 x1 x2 x3)
    (ha : Wp (Proc.devRef .tc main_arg4) = x4) (h3 : Wp (Proc.devRef .tc main_v3) = val_main_v3 (F := F) x1)
    (h6 : Wp (Proc.devRef .tc main_v6) = val_main_v6 (F := F) x1) (h29 : Wp (Proc.devRef .tc main_v29) = val_main_v29 (F := F) x1) :
    after (ops5 (F := F)) Wp (Proc.devRef .tc main_v61) = val_main_v61 (F := F) x0 x1 x2 x3 x4 := by
  after_results; rw [h47, ha, h3, h6, h29]; rfl

set_option maxHeartbeats 4000000 in
theorem result (x0 : (⟨S200000x21, .f32⟩ : BufTy).Contents (Elt F)) (x1 : (⟨S2x6400000, .i32⟩ : BufTy).Contents (Elt F)) (x2 : (⟨S21x16, .f32⟩ : BufTy).Contents (Elt F)) (x3 : (⟨S16, .f32⟩ : BufTy).Contents (Elt F)) (x4 : (⟨S16x6, .f32⟩ : BufTy).Contents (Elt F)) (x5 : (⟨S6, .f32⟩ : BufTy).Contents (Elt F)) (h61 : Wp (Proc.devRef .tc main_v61) = val_main_v61 (F := F) x0 x1 x2 x3 x4)
    (ha : Wp (Proc.devRef .tc main_arg5) = x5) :
    after (ops6 (F := F)) Wp (Proc.devRef .tc main_v65) = val_main_v65 (F := F) x0 x1 x2 x3 x4 x5 := by
  after_results; rw [h61, ha]; simp only [ofBuf_toBuf]; rfl

end Stretches

/-! ## The chain from the launch memory -/

section Chain
variable (m : (ℓ : Loc nD τ sig) → Buf (Elt F) ℓ) (c : Dev nD)

abbrev A0 : (⟨S200000x21, .f32⟩ : BufTy).Contents (Elt F) := m ((c.tc : Thread nD τ).loc main_arg0)
abbrev A1 : (⟨S2x6400000, .i32⟩ : BufTy).Contents (Elt F) := m ((c.tc : Thread nD τ).loc main_arg1)
abbrev A2 : (⟨S21x16, .f32⟩ : BufTy).Contents (Elt F) := m ((c.tc : Thread nD τ).loc main_arg2)
abbrev A3 : (⟨S16, .f32⟩ : BufTy).Contents (Elt F) := m ((c.tc : Thread nD τ).loc main_arg3)
abbrev A4 : (⟨S16x6, .f32⟩ : BufTy).Contents (Elt F) := m ((c.tc : Thread nD τ).loc main_arg4)
abbrev A5 : (⟨S6, .f32⟩ : BufTy).Contents (Elt F) := m ((c.tc : Thread nD τ).loc main_arg5)

/-- The buffers' contents after the first k + 1 stretches. -/
abbrev U0 : Valuation τ sig (Elt F) := after ops0 (launchContents m c)
abbrev U1 : Valuation τ sig (Elt F) := after ops1 (U0 m c)
abbrev U2 : Valuation τ sig (Elt F) := after ops2 (U1 m c)
abbrev U3 : Valuation τ sig (Elt F) := after ops3 (U2 m c)
abbrev U4 : Valuation τ sig (Elt F) := after ops4 (U3 m c)
abbrev U5 : Valuation τ sig (Elt F) := after ops5 (U4 m c)
abbrev U6 : Valuation τ sig (Elt F) := after ops6 (U5 m c)

theorem after_ops : after (ops (F := F)) (launchContents m c) = U6 m c := by
  rw [ops_split]; simp only [after_append]

theorem u0_sources : U0 m c (Proc.devRef .tc main_v3) = val_main_v3 (F := F) (A1 m c) := sources _ _ rfl
theorem u0_targets : U0 m c (Proc.devRef .tc main_v6) = val_main_v6 (F := F) (A1 m c) := targets _ _ rfl
theorem u0_positive : U0 m c (Proc.devRef .tc main_v12) = val_main_v12 (F := F) (A1 m c) := degree_positive _ _ rfl
theorem u0_rsqrt : U0 m c (Proc.devRef .tc main_v13) = val_main_v13 (F := F) (A1 m c) := degree_rsqrt _ _ rfl
theorem u0_zero : U0 m c (Proc.devRef .tc main_cst_2) = val_main_cst_2 (F := F) := zero_fill _

theorem u1_factor : U1 m c (Proc.devRef .tc main_v14) = val_main_v14 (F := F) (A1 m c) :=
  node_factor _ _ (u0_positive m c) (u0_rsqrt m c) (u0_zero m c)
theorem u1_sources : U1 m c (Proc.devRef .tc main_v3) = val_main_v3 (F := F) (A1 m c) :=
  (by unwritten_by ops1 : U1 m c (Proc.devRef .tc main_v3) = U0 m c (Proc.devRef .tc main_v3)).trans (u0_sources m c)
theorem u1_targets : U1 m c (Proc.devRef .tc main_v6) = val_main_v6 (F := F) (A1 m c) :=
  (by unwritten_by ops1 : U1 m c (Proc.devRef .tc main_v6) = U0 m c (Proc.devRef .tc main_v6)).trans (u0_targets m c)

theorem u2_weights : U2 m c (Proc.devRef .tc main_v29) = val_main_v29 (F := F) (A1 m c) :=
  edge_weights _ _ (u1_sources m c) (u1_targets m c) (u1_factor m c)
theorem u2_sources : U2 m c (Proc.devRef .tc main_v3) = val_main_v3 (F := F) (A1 m c) :=
  (by unwritten_by ops2 : U2 m c (Proc.devRef .tc main_v3) = U1 m c (Proc.devRef .tc main_v3)).trans (u1_sources m c)
theorem u2_targets : U2 m c (Proc.devRef .tc main_v6) = val_main_v6 (F := F) (A1 m c) :=
  (by unwritten_by ops2 : U2 m c (Proc.devRef .tc main_v6) = U1 m c (Proc.devRef .tc main_v6)).trans (u1_targets m c)
theorem u2_arg0 : U2 m c (Proc.devRef .tc main_arg0) = A0 m c :=
  (by unwritten_by ops2 : U2 m c (Proc.devRef .tc main_arg0) = U1 m c (Proc.devRef .tc main_arg0)).trans
    ((by unwritten_by ops1 : U1 m c (Proc.devRef .tc main_arg0) = U0 m c (Proc.devRef .tc main_arg0)).trans
    ((by unwritten_by ops0 : U0 m c (Proc.devRef .tc main_arg0) = launchContents m c (Proc.devRef .tc main_arg0)).trans rfl))
theorem u2_arg2 : U2 m c (Proc.devRef .tc main_arg2) = A2 m c :=
  (by unwritten_by ops2 : U2 m c (Proc.devRef .tc main_arg2) = U1 m c (Proc.devRef .tc main_arg2)).trans
    ((by unwritten_by ops1 : U1 m c (Proc.devRef .tc main_arg2) = U0 m c (Proc.devRef .tc main_arg2)).trans
    ((by unwritten_by ops0 : U0 m c (Proc.devRef .tc main_arg2) = launchContents m c (Proc.devRef .tc main_arg2)).trans rfl))

theorem u3_aggregate : U3 m c (Proc.devRef .tc main_v43) = val_main_v43 (F := F) (A0 m c) (A1 m c) (A2 m c) :=
  aggregate1 _ _ _ _ (u2_arg0 m c) (u2_arg2 m c) (u2_sources m c) (u2_targets m c) (u2_weights m c)
theorem u3_sources : U3 m c (Proc.devRef .tc main_v3) = val_main_v3 (F := F) (A1 m c) :=
  (by unwritten_by ops3 : U3 m c (Proc.devRef .tc main_v3) = U2 m c (Proc.devRef .tc main_v3)).trans (u2_sources m c)
theorem u3_targets : U3 m c (Proc.devRef .tc main_v6) = val_main_v6 (F := F) (A1 m c) :=
  (by unwritten_by ops3 : U3 m c (Proc.devRef .tc main_v6) = U2 m c (Proc.devRef .tc main_v6)).trans (u2_targets m c)
theorem u3_weights : U3 m c (Proc.devRef .tc main_v29) = val_main_v29 (F := F) (A1 m c) :=
  (by unwritten_by ops3 : U3 m c (Proc.devRef .tc main_v29) = U2 m c (Proc.devRef .tc main_v29)).trans (u2_weights m c)
theorem u3_arg3 : U3 m c (Proc.devRef .tc main_arg3) = A3 m c :=
  (by unwritten_by ops3 : U3 m c (Proc.devRef .tc main_arg3) = U2 m c (Proc.devRef .tc main_arg3)).trans
    ((by unwritten_by ops2 : U2 m c (Proc.devRef .tc main_arg3) = U1 m c (Proc.devRef .tc main_arg3)).trans
    ((by unwritten_by ops1 : U1 m c (Proc.devRef .tc main_arg3) = U0 m c (Proc.devRef .tc main_arg3)).trans
    ((by unwritten_by ops0 : U0 m c (Proc.devRef .tc main_arg3) = launchContents m c (Proc.devRef .tc main_arg3)).trans rfl)))

theorem u4_hidden : U4 m c (Proc.devRef .tc main_v47) = val_main_v47 (F := F) (A0 m c) (A1 m c) (A2 m c) (A3 m c) :=
  hidden _ _ _ _ _ (u3_aggregate m c) (u3_arg3 m c)
theorem u4_sources : U4 m c (Proc.devRef .tc main_v3) = val_main_v3 (F := F) (A1 m c) :=
  (by unwritten_by ops4 : U4 m c (Proc.devRef .tc main_v3) = U3 m c (Proc.devRef .tc main_v3)).trans (u3_sources m c)
theorem u4_targets : U4 m c (Proc.devRef .tc main_v6) = val_main_v6 (F := F) (A1 m c) :=
  (by unwritten_by ops4 : U4 m c (Proc.devRef .tc main_v6) = U3 m c (Proc.devRef .tc main_v6)).trans (u3_targets m c)
theorem u4_weights : U4 m c (Proc.devRef .tc main_v29) = val_main_v29 (F := F) (A1 m c) :=
  (by unwritten_by ops4 : U4 m c (Proc.devRef .tc main_v29) = U3 m c (Proc.devRef .tc main_v29)).trans (u3_weights m c)
theorem u4_arg4 : U4 m c (Proc.devRef .tc main_arg4) = A4 m c :=
  (by unwritten_by ops4 : U4 m c (Proc.devRef .tc main_arg4) = U3 m c (Proc.devRef .tc main_arg4)).trans
    ((by unwritten_by ops3 : U3 m c (Proc.devRef .tc main_arg4) = U2 m c (Proc.devRef .tc main_arg4)).trans
    ((by unwritten_by ops2 : U2 m c (Proc.devRef .tc main_arg4) = U1 m c (Proc.devRef .tc main_arg4)).trans
    ((by unwritten_by ops1 : U1 m c (Proc.devRef .tc main_arg4) = U0 m c (Proc.devRef .tc main_arg4)).trans
    ((by unwritten_by ops0 : U0 m c (Proc.devRef .tc main_arg4) = launchContents m c (Proc.devRef .tc main_arg4)).trans rfl))))

theorem u5_aggregate : U5 m c (Proc.devRef .tc main_v61) = val_main_v61 (F := F) (A0 m c) (A1 m c) (A2 m c) (A3 m c) (A4 m c) :=
  aggregate2 _ _ _ _ _ _ (u4_hidden m c) (u4_arg4 m c) (u4_sources m c) (u4_targets m c) (u4_weights m c)
theorem u5_arg5 : U5 m c (Proc.devRef .tc main_arg5) = A5 m c :=
  (by unwritten_by ops5 : U5 m c (Proc.devRef .tc main_arg5) = U4 m c (Proc.devRef .tc main_arg5)).trans
    ((by unwritten_by ops4 : U4 m c (Proc.devRef .tc main_arg5) = U3 m c (Proc.devRef .tc main_arg5)).trans
    ((by unwritten_by ops3 : U3 m c (Proc.devRef .tc main_arg5) = U2 m c (Proc.devRef .tc main_arg5)).trans
    ((by unwritten_by ops2 : U2 m c (Proc.devRef .tc main_arg5) = U1 m c (Proc.devRef .tc main_arg5)).trans
    ((by unwritten_by ops1 : U1 m c (Proc.devRef .tc main_arg5) = U0 m c (Proc.devRef .tc main_arg5)).trans
    ((by unwritten_by ops0 : U0 m c (Proc.devRef .tc main_arg5) = launchContents m c (Proc.devRef .tc main_arg5)).trans rfl)))))

/-- After the whole line the result buffer holds the last stage of the six arguments as launched. -/
theorem result_eq : after (ops (F := F)) (launchContents m c) (Proc.devRef .tc main_v65)
    = val_main_v65 (F := F) (A0 m c) (A1 m c) (A2 m c) (A3 m c) (A4 m c) (A5 m c) := by
  rw [after_ops]
  exact result _ _ _ _ _ _ _ (u5_aggregate m c) (u5_arg5 m c)

end Chain

/-! ## The run -/

set_option maxRecDepth 8192 in
set_option maxHeartbeats 39200000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.KRun.lean ====
/-
  The idealized kernel's run with its result named.

  @main is nine segments: three stretches of host operations, the first projection x·W1 (a grid of 40 row
  blocks), the host's gather, scale and segment sum, the bias-and-relu region, the second projection, the
  host's gather, scale and segment sum again, and the bias-and-log-softmax region. The generated frame
  follows the contents of every buffer through these segments as a fold `W0 … W9` from the launch memory,
  and at the end every buffer that is not a kernel's staging buffer holds `W9`'s value. The generated
  statement keeps only the six arguments of that; here the same run is stated with the result buffer
  `main_v60` kept as well: it ends holding `W9 m ρ c` at `main_v60`.
-/
import proofs.«100570_j33397665694120_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the last
    boundary's contents `W9`, and the six arguments end as launched. -/
theorem run_result : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.FirstProjection.lean ====
/-
  The first projection, x · W1: what the 40-point grid leaves in its result array.

  At each of 40 grid points the kernel multiplies a block of 5000 rows of x by the whole of W1, after rounding
  both to bf16, and accumulates into zero. At the exact values a rounding is the identity, and entry (p, q) of a
  product is the sum over the 21 values of k of left (p, k) · weights (k, q): it depends on row p of the left operand
  only. So the block a point writes back is the point's rows of the product of the WHOLE arrays, and since the 40
  blocks tile the 200000 rows the result array ends holding that whole product.
-/
import proofs.«100570_j33397665694120_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.FirstProjection

open Idealize.ShloMosaic Idealize.ShloMosaic.TcCoe Idealize.SL.Sem
open Idealize.ShloMosaic.Pipeline (Dat)
open Cert.KernelIdeal Cert.KernelIdeal.Gen

-- the contents of every buffer when the region is entered: a parameter, as in the generated frame
variable (V : (c : Dev nD) → (b : Ref sig .tc) → Buf (Elt Ideal) ((c : Thread nD τ).loc b))

theorem zero_offsets : (![0, 0] : Fin 2 → Nat) = fun _ => 0 := funext fun a => by fin_cases a <;> rfl

/-! ## The block product at an entry -/

/-- Entry `(p, q)` of a block product reads row `p` of the left block … -/
abbrev lrow (j : S5000x16.Idx) (k : Fin 21) : S5000x21.Idx := fun a => match a with
  | ⟨0, _⟩ => ⟨(j 0).val, (j 0).isLt⟩
  | ⟨1, _⟩ => ⟨k.val, k.isLt⟩
/-- … and column `q` of the weights. -/
abbrev rcol (j : S5000x16.Idx) (k : Fin 21) : S21x16.Idx := fun a => match a with
  | ⟨0, _⟩ => ⟨k.val, k.isLt⟩
  | ⟨1, _⟩ => ⟨(j 1).val, (j 1).isLt⟩

theorem lhs_coord0 (j : S5000x16.Idx) (q : dot_S5000x21_S21x16_S5000x16_1_0_0_1_n_n.contr.Idx) :
    (dot_S5000x21_S21x16_S5000x16_1_0_0_1_n_n.lhsIdx j q 0).val = (j 0).val := by
  unfold DotDims.lhsIdx
  rw [dif_neg (show ¬(0 : Fin S5000x21.rank) ∈ dot_S5000x21_S21x16_S5000x16_1_0_0_1_n_n.lhsBatch by decide), dif_pos (show (0 : Fin S5000x21.rank) ∈ dot_S5000x21_S21x16_S5000x16_1_0_0_1_n_n.lhsNonContracting by decide)]
  rfl
theorem lhs_coord1 (j : S5000x16.Idx) (q : dot_S5000x21_S21x16_S5000x16_1_0_0_1_n_n.contr.Idx) :
    (dot_S5000x21_S21x16_S5000x16_1_0_0_1_n_n.lhsIdx j q 1).val = (q ⟨0, by decide⟩).val :=
  dot_S5000x21_S21x16_S5000x16_1_0_0_1_n_n.lhsIdx_val_of_single rfl j q
theorem rhs_coord0 (j : S5000x16.Idx) (q : dot_S5000x21_S21x16_S5000x16_1_0_0_1_n_n.contr.Idx) :
    (dot_S5000x21_S21x16_S5000x16_1_0_0_1_n_n.rhsIdx j q 0).val = (q ⟨0, by decide⟩).val :=
  dot_S5000x21_S21x16_S5000x16_1_0_0_1_n_n.rhsIdx_val_of_single rfl j q
theorem rhs_coord1 (j : S5000x16.Idx) (q : dot_S5000x21_S21x16_S5000x16_1_0_0_1_n_n.contr.Idx) :
    (dot_S5000x21_S21x16_S5000x16_1_0_0_1_n_n.rhsIdx j q 1).val = (j 1).val := by
  unfold DotDims.rhsIdx
  rw [dif_neg (show ¬(1 : Fin S21x16.rank) ∈ dot_S5000x21_S21x16_S5000x16_1_0_0_1_n_n.rhsBatch by decide), dif_pos (show (1 : Fin S21x16.rank) ∈ dot_S5000x21_S21x16_S5000x16_1_0_0_1_n_n.rhsNonContracting by decide)]
  rfl

/-- The body's stored value at an entry: the roundings to bf16 are the identity on exact values and the
    accumulator is zero, so what is left is the sum over the 21 contracted coordinates of the products. -/
theorem payload_apply (x0 : Vec Ideal S5000x21 .f32) (x1 : Vec Ideal S21x16 .f32) (j : S5000x16.Idx) :
    k0_pay1 x0 x1 j = ∑ k : Fin 21, x0 (lrow j k) * x1 (rcol j k) := by
  unfold k0_pay1
  simp only [matmul, shapeCast_self]
  rw [Ideal.matmul_constant_zero_apply, ← Equiv.sum_comp (ValueIdx.contrEquiv1 dot_S5000x21_S21x16_S5000x16_1_0_0_1_n_n 21 rfl rfl).symm]
  refine Finset.sum_congr rfl fun k _ => ?_
  have hk := ValueIdx.contrEquiv1_symm_val dot_S5000x21_S21x16_S5000x16_1_0_0_1_n_n 21 rfl rfl k
  have el : dot_S5000x21_S21x16_S5000x16_1_0_0_1_n_n.lhsIdx j ((ValueIdx.contrEquiv1 dot_S5000x21_S21x16_S5000x16_1_0_0_1_n_n 21 rfl rfl).symm k) = lrow j k := funext fun a => Fin.ext (by
    match a with
    | ⟨0, _⟩ => exact lhs_coord0 _ _
    | ⟨1, _⟩ => exact (lhs_coord1 _ _).trans hk)
  have er : dot_S5000x21_S21x16_S5000x16_1_0_0_1_n_n.rhsIdx j ((ValueIdx.contrEquiv1 dot_S5000x21_S21x16_S5000x16_1_0_0_1_n_n 21 rfl rfl).symm k) = rcol j k := funext fun a => Fin.ext (by
    match a with
    | ⟨0, _⟩ => exact (rhs_coord0 _ _).trans hk
    | ⟨1, _⟩ => exact rhs_coord1 _ _)
  rw [el, er]
  rfl

/-! ## The blocks -/

/-- The printed index maps over the grid: point `t` takes row block `t` of the left operand and of the
    result, and the whole weight matrix. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point `t` is rows `5000 t … 5000 t + 4999` of x. -/
theorem left_block (c : Dev nD) (t : Fin cfg0.N) (y : S5000x21.Idx) (i : S200000x21.Idx)
    (h0 : (i 0).val = t.val * 5000 + (y 0).val) (h1 : (i 1).val = (y 1).val) :
    (iblk0 V c 0 t : Vec Ideal S5000x21 .f32) y = (V c main_arg0 : S200000x21.Idx → Elt Ideal .f32) i := by
  obtain ⟨e0, e1, -, -, -, -⟩ := index_maps t
  unfold iblk0
  rw [View.read_apply]
  refine congrArg (V c main_arg0 : S200000x21.Idx → Elt Ideal .f32) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 21 + 1 * (y 1).val = (i 1).val; rw [e1, h1]; omega

/-- The weight block at every point is the whole of W1. -/
theorem weight_block (c : Dev nD) (t : Fin cfg0.N) (y : S21x16.Idx) :
    (iblk0 V c 1 t : Vec Ideal S21x16 .f32) y = (V c main_arg2 : S21x16.Idx → Elt Ideal .f32) y := by
  obtain ⟨-, -, e2, e3, -, -⟩ := index_maps t
  unfold iblk0
  rw [View.read_apply]
  refine congrArg (V c main_arg2 : S21x16.Idx → Elt Ideal .f32) (funext fun a => Fin.ext ?_)
  match a with
  | ⟨0, _⟩ => show win0_1.index t (0 : Fin 2) * 21 + 1 * (y 0).val = (y 0).val; rw [e2]; omega
  | ⟨1, _⟩ => show win0_1.index t (1 : Fin 2) * 16 + 1 * (y 1).val = (y 1).val; rw [e3]; omega

/-! ## The array after the region -/

/-- Entry `(n, q)` of the product of the WHOLE arrays reads row `n` of the left one … -/
abbrev rowOf (i : S200000x16.Idx) (k : Fin 21) : S200000x21.Idx := fun a => match a with
  | ⟨0, _⟩ => ⟨(i 0).val, (i 0).isLt⟩
  | ⟨1, _⟩ => ⟨k.val, k.isLt⟩
/-- … and column `q` of the weights. -/
abbrev colOf (i : S200000x16.Idx) (k : Fin 21) : S21x16.Idx := fun a => match a with
  | ⟨0, _⟩ => ⟨k.val, k.isLt⟩
  | ⟨1, _⟩ => ⟨(i 1).val, (i 1).isLt⟩

/-- `P` is the product of `L` and `R`: entry `(n, q)` is the sum over `k` of `L (n, k)` times `R (k, q)`. -/
def IsProduct (L : (⟨S200000x21, .f32⟩ : BufTy).Contents (Elt Ideal)) (R : (⟨S21x16, .f32⟩ : BufTy).Contents (Elt Ideal))
    (P : (⟨S200000x16, .f32⟩ : BufTy).Contents (Elt Ideal)) : Prop :=
  ∀ i : S200000x16.Idx, P i = ∑ k : Fin 21, L (rowOf i k) * R (colOf i k)

/-- What point `t` writes back is row block `t` of the whole product: an entry of a product depends on one
    row of the left operand only, and the point's left block holds exactly the rows of its result block. -/
theorem flushed_eq (c : Dev nD) (L : (⟨S200000x21, .f32⟩ : BufTy).Contents (Elt Ideal)) (R : (⟨S21x16, .f32⟩ : BufTy).Contents (Elt Ideal))
    (P : (⟨S200000x16, .f32⟩ : BufTy).Contents (Elt Ideal)) (hL : V c main_arg0 = L) (hR : V c main_arg2 = R) (hP : IsProduct L R P) (t : Fin cfg0.N) :
    (dat0 V c).flushed 2 t = ((cfg0.win 2).blk t).view.read (Elt Ideal) P := by
  show (cfg0.win 2).cut (grid0.coords t) ((dat0 V c).after 2 t) = _
  rw [after0_2]
  unfold out0_2
  rw [View.canon_unit_zero zero_offsets]
  simp only [View.ld_unit_zero (S := S5000x21) zero_offsets, View.ld_unit_zero (S := S21x16) zero_offsets]
  obtain ⟨-, -, -, -, e4, e5⟩ := index_maps t
  funext j
  show k0_pay1 (iblk0 V c 0 t) (iblk0 V c 1 t) j = P (((cfg0.win 2).blk t).view.emb j)
  rw [payload_apply, hP]
  refine Finset.sum_congr rfl fun k _ => ?_
  have hl : (iblk0 V c 0 t : Vec Ideal S5000x21 .f32) (lrow j k) = L (rowOf (((cfg0.win 2).blk t).view.emb j) k) :=
    (left_block V c t _ _
      (by show win0_2.index t (0 : Fin 2) * 5000 + 1 * (j 0).val = t.val * 5000 + (j 0).val; rw [e4]; omega) rfl).trans (congrFun hL _)
  have hr : (iblk0 V c 1 t : Vec Ideal S21x16 .f32) (rcol j k) = R (colOf (((cfg0.win 2).blk t).view.emb j) k) := by
    rw [weight_block, congrFun hR]
    refine congrArg R (funext fun a => Fin.ext ?_)
    match a with
    | ⟨0, _⟩ => rfl
    | ⟨1, _⟩ => show (j 1).val = win0_2.index t (1 : Fin 2) * 16 + 1 * (j 1).val; rw [e5]; omega
  rw [hl, hr]

/-- An index of the result array lies in point `t`'s block iff each coordinate lies in the block's range. -/
theorem mem_block (t : Fin cfg0.N) (i : S200000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- The 40 row blocks of 5000 rows cover the 200000 rows: row `r` lies in block `r / 5000`. -/
theorem covered (i : S200000x16.Idx) :
    ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 40 := N_0
  refine ⟨⟨(i 0).val / 5000, by rw [hN]; omega⟩, flush0_2 _, ?_⟩
  rw [mem_block]
  obtain ⟨-, -, -, -, e4, e5⟩ := index_maps ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 16 ≤ (i 1).val ∧ (i 1).val < win0_2.index _ (1 : Fin 2) * 16 + 16
    rw [e5]; omega

/-- After the region the result array holds the product of the two arrays the region found. -/
theorem final (c : Dev nD) (L : (⟨S200000x21, .f32⟩ : BufTy).Contents (Elt Ideal)) (R : (⟨S21x16, .f32⟩ : BufTy).Contents (Elt Ideal))
    (P : (⟨S200000x16, .f32⟩ : BufTy).Contents (Elt Ideal)) (hL : V c main_arg0 = L) (hR : V c main_arg2 = R) (hP : IsProduct L R P) :
    (dat0 V c).arrAt 2 cfg0.N = P :=
  (dat0 V c).arrAt_eq_of_cover 2 P (fun t _ => flushed_eq V c L R P hL hR hP t) covered

end Cert.KernelIdeal.FirstProjection

end
-- ==== Proof.BiasRelu.lean ====
/-
  The bias-and-relu region: what the 40-point grid leaves in its result array.

  At each of 40 grid points the kernel takes a block of 5000 rows of the aggregated features, adds the bias row to
  every row of it, and takes the maximum with zero. The operation is entry by entry: entry (p, q) of the block a
  point writes back is max (a (n, q) + b (0, q), 0) for the row n = 5000 t + p of the whole array. The 40 blocks tile
  the 200000 rows, so the result array ends holding that function of the whole array and the bias row.
-/
import proofs.«100570_j33397665694120_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Idealize.ShloMosaic Idealize.ShloMosaic.TcCoe Idealize.SL.Sem
open Idealize.ShloMosaic.Pipeline (Dat)
open Idealize.ShloMosaic.ValueIdx (ix2 eq_ix2)
open Cert.KernelIdeal Cert.KernelIdeal.Gen

-- the contents of every buffer when the region is entered: a parameter, as in the generated frame
variable (V : (c : Dev nD) → (b : Ref sig .tc) → Buf (Elt Ideal) ((c : Thread nD τ).loc b))

theorem zero_offsets : (![0, 0] : Fin 2 → Nat) = fun _ => 0 := funext fun a => by fin_cases a <;> rfl

/-! ## The body at an entry -/

/-- The body's stored value at `(p, q)`: the block's entry plus the bias row's entry `q`, or zero if that is larger
    (the casts to the same shape change nothing; the bias row is read at row 0 whatever `p` is). -/
theorem payload_apply (b : Vec Ideal S1x16 .f32) (x : Vec Ideal S5000x16 .f32) (p : Fin 5000) (q : Fin 16) :
    k1_pay1 b x (ix2 p q) = max (x (ix2 p q) + b (ix2 (0 : Fin 1) q)) (Ideal.ofBits .f32 0x00000000#32) := by
  unfold k1_pay1
  simp only [shapeCast_self]
  show max (x (ix2 p q) + broadcastTo S5000x16 b broadcasts_S1x16_S5000x16 (ix2 p q)) (Ideal.ofBits .f32 0x00000000#32) = _
  rw [ValueIdx.broadcastTo_1b_ab_apply]

/-! ## The blocks -/

/-- The printed index maps over the grid: point `t` takes row block `t` of the features and of the result, and
    the whole bias row. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The features' block at point `t` is rows `5000 t … 5000 t + 4999` of the array. -/
theorem data_block (c : Dev nD) (t : Fin cfg1.N) (y : S5000x16.Idx) (i : S200000x16.Idx)
    (h0 : (i 0).val = t.val * 5000 + (y 0).val) (h1 : (i 1).val = (y 1).val) :
    (iblk1 V c 0 t : Vec Ideal S5000x16 .f32) y = (V c main_v43 : S200000x16.Idx → Elt Ideal .f32) i := by
  obtain ⟨e0, e1, -, -, -, -⟩ := index_maps t
  unfold iblk1
  rw [View.read_apply]
  refine congrArg (V c main_v43 : S200000x16.Idx → Elt Ideal .f32) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 16 + 1 * (y 1).val = (i 1).val; rw [e1, h1]; omega

/-- The bias block at every point is the whole bias row. -/
theorem bias_block (c : Dev nD) (t : Fin cfg1.N) (y : S1x16.Idx) :
    (iblk1 V c 1 t : Vec Ideal S1x16 .f32) y = (V c main_v44 : S1x16.Idx → Elt Ideal .f32) y := by
  obtain ⟨-, -, e2, e3, -, -⟩ := index_maps t
  unfold iblk1
  rw [View.read_apply]
  refine congrArg (V c main_v44 : S1x16.Idx → Elt Ideal .f32) (funext fun a => Fin.ext ?_)
  match a with
  | ⟨0, _⟩ => show win1_1.index t (0 : Fin 2) * 1 + 1 * (y 0).val = (y 0).val; rw [e2]; omega
  | ⟨1, _⟩ => show win1_1.index t (1 : Fin 2) * 16 + 1 * (y 1).val = (y 1).val; rw [e3]; omega

/-! ## The array after the region -/

/-- `P` is `A` with the bias row `B` added to every row, cut off below at zero. -/
def IsBiasRelu (A : (⟨S200000x16, .f32⟩ : BufTy).Contents (Elt Ideal)) (B : (⟨S1x16, .f32⟩ : BufTy).Contents (Elt Ideal))
    (P : (⟨S200000x16, .f32⟩ : BufTy).Contents (Elt Ideal)) : Prop :=
  ∀ (n : Fin 200000) (q : Fin 16), P (ix2 n q) = max (A (ix2 n q) + B (ix2 (0 : Fin 1) q)) (Ideal.ofBits .f32 0x00000000#32)

/-- What point `t` writes back is row block `t` of that array: the body works entry by entry, and the point's
    block holds exactly the rows of its result block. -/
theorem flushed_eq (c : Dev nD) (A : (⟨S200000x16, .f32⟩ : BufTy).Contents (Elt Ideal)) (B : (⟨S1x16, .f32⟩ : BufTy).Contents (Elt Ideal))
    (P : (⟨S200000x16, .f32⟩ : BufTy).Contents (Elt Ideal)) (hA : V c main_v43 = A) (hB : V c main_v44 = B) (hP : IsBiasRelu A B P)
    (t : Fin cfg1.N) :
    (dat1 V c).flushed 2 t = ((cfg1.win 2).blk t).view.read (Elt Ideal) P := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S1x16) zero_offsets]
  obtain ⟨-, -, -, -, e4, e5⟩ := index_maps t
  have hN : cfg1.N = 40 := N_1
  have ht : t.val < 40 := hN ▸ t.isLt
  funext j
  obtain ⟨p, q, rfl⟩ : ∃ (p : Fin 5000) (q : Fin 16), j = ix2 p q := ⟨j 0, j 1, eq_ix2 j⟩
  have he : ((cfg1.win 2).blk t).view.emb (ix2 p q) = ix2 (⟨t.val * 5000 + p.val, by omega⟩ : Fin 200000) q :=
    funext fun a => Fin.ext (by
      match a with
      | ⟨0, _⟩ => show win1_2.index t (0 : Fin 2) * 5000 + 1 * p.val = t.val * 5000 + p.val; rw [e4]; omega
      | ⟨1, _⟩ => show win1_2.index t (1 : Fin 2) * 16 + 1 * q.val = q.val; rw [e5]; omega)
  show k1_pay1 (iblk1 V c 1 t) (iblk1 V c 0 t) (ix2 p q) = P (((cfg1.win 2).blk t).view.emb (ix2 p q))
  rw [he, hP, payload_apply,
    data_block V c t (ix2 p q) (ix2 (⟨t.val * 5000 + p.val, by omega⟩ : Fin 200000) q) rfl rfl,
    bias_block V c t (ix2 (0 : Fin 1) q), congrFun hA, congrFun hB]

/-- An index of the result array lies in point `t`'s block iff each coordinate lies in the block's range. -/
theorem mem_block (t : Fin cfg1.N) (i : S200000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- The 40 row blocks of 5000 rows cover the 200000 rows: row `r` lies in block `r / 5000`. -/
theorem covered (i : S200000x16.Idx) :
    ∃ t : Fin cfg1.N, (cfg1.win 2).flush t = true ∧ i ∈ ((cfg1.win 2).blk t).view.set := by
  have hi0 : (i 0).val < 200000 := (i 0).isLt
  have hi1 : (i 1).val < 16 := (i 1).isLt
  have hN : cfg1.N = 40 := N_1
  refine ⟨⟨(i 0).val / 5000, by rw [hN]; omega⟩, flush1_2 _, ?_⟩
  rw [mem_block]
  obtain ⟨-, -, -, -, e4, e5⟩ := index_maps ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 16 ≤ (i 1).val ∧ (i 1).val < win1_2.index _ (1 : Fin 2) * 16 + 16
    rw [e5]; omega

/-- After the region the result array holds the features with the bias added, cut off below at zero. -/
theorem final (c : Dev nD) (A : (⟨S200000x16, .f32⟩ : BufTy).Contents (Elt Ideal)) (B : (⟨S1x16, .f32⟩ : BufTy).Contents (Elt Ideal))
    (P : (⟨S200000x16, .f32⟩ : BufTy).Contents (Elt Ideal)) (hA : V c main_v43 = A) (hB : V c main_v44 = B) (hP : IsBiasRelu A B P) :
    (dat1 V c).arrAt 2 cfg1.N = P :=
  (dat1 V c).arrAt_eq_of_cover 2 P (fun t _ => flushed_eq V c A B P hA hB hP t) covered

end Cert.KernelIdeal.BiasRelu

end
-- ==== Proof.SecondProjection.lean ====
/-
  The second projection, h · W2: what the 40-point grid leaves in its result array.

  At each of 40 grid points the kernel multiplies a block of 5000 rows of the hidden layer h by the whole of W2, after rounding
  both to bf16, and accumulates into zero. At the exact values a rounding is the identity, and entry (p, q) of a
  product is the sum over the 16 values of k of left (p, k) · weights (k, q): it depends on row p of the left operand
  only. So the block a point writes back is the point's rows of the product of the WHOLE arrays, and since the 40
  blocks tile the 200000 rows the result array ends holding that whole product.
-/
import proofs.«100570_j33397665694120_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.SecondProjection

open Idealize.ShloMosaic Idealize.ShloMosaic.TcCoe Idealize.SL.Sem
open Idealize.ShloMosaic.Pipeline (Dat)
open Cert.KernelIdeal Cert.KernelIdeal.Gen

-- the contents of every buffer when the region is entered: a parameter, as in the generated frame
variable (V : (c : Dev nD) → (b : Ref sig .tc) → Buf (Elt Ideal) ((c : Thread nD τ).loc b))

theorem zero_offsets : (![0, 0] : Fin 2 → Nat) = fun _ => 0 := funext fun a => by fin_cases a <;> rfl

/-! ## The block product at an entry -/

/-- Entry `(p, q)` of a block product reads row `p` of the left block … -/
abbrev lrow (j : S5000x6.Idx) (k : Fin 16) : S5000x16.Idx := fun a => match a with
  | ⟨0, _⟩ => ⟨(j 0).val, (j 0).isLt⟩
  | ⟨1, _⟩ => ⟨k.val, k.isLt⟩
/-- … and column `q` of the weights. -/
abbrev rcol (j : S5000x6.Idx) (k : Fin 16) : S16x6.Idx := fun a => match a with
  | ⟨0, _⟩ => ⟨k.val, k.isLt⟩
  | ⟨1, _⟩ => ⟨(j 1).val, (j 1).isLt⟩

theorem lhs_coord0 (j : S5000x6.Idx) (q : dot_S5000x16_S16x6_S5000x6_1_0_0_1_n_n.contr.Idx) :
    (dot_S5000x16_S16x6_S5000x6_1_0_0_1_n_n.lhsIdx j q 0).val = (j 0).val := by
  unfold DotDims.lhsIdx
  rw [dif_neg (show ¬(0 : Fin S5000x16.rank) ∈ dot_S5000x16_S16x6_S5000x6_1_0_0_1_n_n.lhsBatch by decide), dif_pos (show (0 : Fin S5000x16.rank) ∈ dot_S5000x16_S16x6_S5000x6_1_0_0_1_n_n.lhsNonContracting by decide)]
  rfl
theorem lhs_coord1 (j : S5000x6.Idx) (q : dot_S5000x16_S16x6_S5000x6_1_0_0_1_n_n.contr.Idx) :
    (dot_S5000x16_S16x6_S5000x6_1_0_0_1_n_n.lhsIdx j q 1).val = (q ⟨0, by decide⟩).val :=
  dot_S5000x16_S16x6_S5000x6_1_0_0_1_n_n.lhsIdx_val_of_single rfl j q
theorem rhs_coord0 (j : S5000x6.Idx) (q : dot_S5000x16_S16x6_S5000x6_1_0_0_1_n_n.contr.Idx) :
    (dot_S5000x16_S16x6_S5000x6_1_0_0_1_n_n.rhsIdx j q 0).val = (q ⟨0, by decide⟩).val :=
  dot_S5000x16_S16x6_S5000x6_1_0_0_1_n_n.rhsIdx_val_of_single rfl j q
theorem rhs_coord1 (j : S5000x6.Idx) (q : dot_S5000x16_S16x6_S5000x6_1_0_0_1_n_n.contr.Idx) :
    (dot_S5000x16_S16x6_S5000x6_1_0_0_1_n_n.rhsIdx j q 1).val = (j 1).val := by
  unfold DotDims.rhsIdx
  rw [dif_neg (show ¬(1 : Fin S16x6.rank) ∈ dot_S5000x16_S16x6_S5000x6_1_0_0_1_n_n.rhsBatch by decide), dif_pos (show (1 : Fin S16x6.rank) ∈ dot_S5000x16_S16x6_S5000x6_1_0_0_1_n_n.rhsNonContracting by decide)]
  rfl

/-- The body's stored value at an entry: the roundings to bf16 are the identity on exact values and the
    accumulator is zero, so what is left is the sum over the 16 contracted coordinates of the products. -/
theorem payload_apply (x0 : Vec Ideal S5000x16 .f32) (x1 : Vec Ideal S16x6 .f32) (j : S5000x6.Idx) :
    k2_pay1 x0 x1 j = ∑ k : Fin 16, x0 (lrow j k) * x1 (rcol j k) := by
  unfold k2_pay1
  simp only [matmul, shapeCast_self]
  rw [Ideal.matmul_constant_zero_apply, ← Equiv.sum_comp (ValueIdx.contrEquiv1 dot_S5000x16_S16x6_S5000x6_1_0_0_1_n_n 16 rfl rfl).symm]
  refine Finset.sum_congr rfl fun k _ => ?_
  have hk := ValueIdx.contrEquiv1_symm_val dot_S5000x16_S16x6_S5000x6_1_0_0_1_n_n 16 rfl rfl k
  have el : dot_S5000x16_S16x6_S5000x6_1_0_0_1_n_n.lhsIdx j ((ValueIdx.contrEquiv1 dot_S5000x16_S16x6_S5000x6_1_0_0_1_n_n 16 rfl rfl).symm k) = lrow j k := funext fun a => Fin.ext (by
    match a with
    | ⟨0, _⟩ => exact lhs_coord0 _ _
    | ⟨1, _⟩ => exact (lhs_coord1 _ _).trans hk)
  have er : dot_S5000x16_S16x6_S5000x6_1_0_0_1_n_n.rhsIdx j ((ValueIdx.contrEquiv1 dot_S5000x16_S16x6_S5000x6_1_0_0_1_n_n 16 rfl rfl).symm k) = rcol j k := funext fun a => Fin.ext (by
    match a with
    | ⟨0, _⟩ => exact (rhs_coord0 _ _).trans hk
    | ⟨1, _⟩ => exact rhs_coord1 _ _)
  rw [el, er]
  rfl

/-! ## The blocks -/

/-- The printed index maps over the grid: point `t` takes row block `t` of the left operand and of the
    result, and the whole weight matrix. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point `t` is rows `5000 t … 5000 t + 4999` of the hidden layer. -/
theorem left_block (c : Dev nD) (t : Fin cfg2.N) (y : S5000x16.Idx) (i : S200000x16.Idx)
    (h0 : (i 0).val = t.val * 5000 + (y 0).val) (h1 : (i 1).val = (y 1).val) :
    (iblk2 V c 0 t : Vec Ideal S5000x16 .f32) y = (V c main_v45 : S200000x16.Idx → Elt Ideal .f32) i := by
  obtain ⟨e0, e1, -, -, -, -⟩ := index_maps t
  unfold iblk2
  rw [View.read_apply]
  refine congrArg (V c main_v45 : S200000x16.Idx → Elt Ideal .f32) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 16 + 1 * (y 1).val = (i 1).val; rw [e1, h1]; omega

/-- The weight block at every point is the whole of W2. -/
theorem weight_block (c : Dev nD) (t : Fin cfg2.N) (y : S16x6.Idx) :
    (iblk2 V c 1 t : Vec Ideal S16x6 .f32) y = (V c main_arg4 : S16x6.Idx → Elt Ideal .f32) y := by
  obtain ⟨-, -, e2, e3, -, -⟩ := index_maps t
  unfold iblk2
  rw [View.read_apply]
  refine congrArg (V c main_arg4 : S16x6.Idx → Elt Ideal .f32) (funext fun a => Fin.ext ?_)
  match a with
  | ⟨0, _⟩ => show win2_1.index t (0 : Fin 2) * 16 + 1 * (y 0).val = (y 0).val; rw [e2]; omega
  | ⟨1, _⟩ => show win2_1.index t (1 : Fin 2) * 6 + 1 * (y 1).val = (y 1).val; rw [e3]; omega

/-! ## The array after the region -/

/-- Entry `(n, q)` of the product of the WHOLE arrays reads row `n` of the left one … -/
abbrev rowOf (i : S200000x6.Idx) (k : Fin 16) : S200000x16.Idx := fun a => match a with
  | ⟨0, _⟩ => ⟨(i 0).val, (i 0).isLt⟩
  | ⟨1, _⟩ => ⟨k.val, k.isLt⟩
/-- … and column `q` of the weights. -/
abbrev colOf (i : S200000x6.Idx) (k : Fin 16) : S16x6.Idx := fun a => match a with
  | ⟨0, _⟩ => ⟨k.val, k.isLt⟩
  | ⟨1, _⟩ => ⟨(i 1).val, (i 1).isLt⟩

/-- `P` is the product of `L` and `R`: entry `(n, q)` is the sum over `k` of `L (n, k)` times `R (k, q)`. -/
def IsProduct (L : (⟨S200000x16, .f32⟩ : BufTy).Contents (Elt Ideal)) (R : (⟨S16x6, .f32⟩ : BufTy).Contents (Elt Ideal))
    (P : (⟨S200000x6, .f32⟩ : BufTy).Contents (Elt Ideal)) : Prop :=
  ∀ i : S200000x6.Idx, P i = ∑ k : Fin 16, L (rowOf i k) * R (colOf i k)

/-- What point `t` writes back is row block `t` of the whole product: an entry of a product depends on one
    row of the left operand only, and the point's left block holds exactly the rows of its result block. -/
theorem flushed_eq (c : Dev nD) (L : (⟨S200000x16, .f32⟩ : BufTy).Contents (Elt Ideal)) (R : (⟨S16x6, .f32⟩ : BufTy).Contents (Elt Ideal))
    (P : (⟨S200000x6, .f32⟩ : BufTy).Contents (Elt Ideal)) (hL : V c main_v45 = L) (hR : V c main_arg4 = R) (hP : IsProduct L R P) (t : Fin cfg2.N) :
    (dat2 V c).flushed 2 t = ((cfg2.win 2).blk t).view.read (Elt Ideal) P := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S16x6) zero_offsets]
  obtain ⟨-, -, -, -, e4, e5⟩ := index_maps t
  funext j
  show k2_pay1 (iblk2 V c 0 t) (iblk2 V c 1 t) j = P (((cfg2.win 2).blk t).view.emb j)
  rw [payload_apply, hP]
  refine Finset.sum_congr rfl fun k _ => ?_
  have hl : (iblk2 V c 0 t : Vec Ideal S5000x16 .f32) (lrow j k) = L (rowOf (((cfg2.win 2).blk t).view.emb j) k) :=
    (left_block V c t _ _
      (by show win2_2.index t (0 : Fin 2) * 5000 + 1 * (j 0).val = t.val * 5000 + (j 0).val; rw [e4]; omega) rfl).trans (congrFun hL _)
  have hr : (iblk2 V c 1 t : Vec Ideal S16x6 .f32) (rcol j k) = R (colOf (((cfg2.win 2).blk t).view.emb j) k) := by
    rw [weight_block, congrFun hR]
    refine congrArg R (funext fun a => Fin.ext ?_)
    match a with
    | ⟨0, _⟩ => rfl
    | ⟨1, _⟩ => show (j 1).val = win2_2.index t (1 : Fin 2) * 6 + 1 * (j 1).val; rw [e5]; omega
  rw [hl, hr]

/-- An index of the result array lies in point `t`'s block iff each coordinate lies in the block's range. -/
theorem mem_block (t : Fin cfg2.N) (i : S200000x6.Idx) :
    i ∈ ((cfg2.win 2).blk t).view.set ↔ ∀ a : Fin 2, win2_2.index t a * S5000x6.size a ≤ (i a).val ∧ (i a).val < win2_2.index t a * S5000x6.size a + S5000x6.size a := by
  show i ∈ ((View.whole main_v46).slice (win2_2.rect t)).set ↔ _
  rw [View.set_slice_whole, Rect.mem_set_unit]
  exact Iff.rfl

/-- The 40 row blocks of 5000 rows cover the 200000 rows: row `r` lies in block `r / 5000`. -/
theorem covered (i : S200000x6.Idx) :
    ∃ t : Fin cfg2.N, (cfg2.win 2).flush t = true ∧ i ∈ ((cfg2.win 2).blk t).view.set := by
  have hi0 : (i 0).val < 200000 := (i 0).isLt
  have hi1 : (i 1).val < 6 := (i 1).isLt
  have hN : cfg2.N = 40 := N_2
  refine ⟨⟨(i 0).val / 5000, by rw [hN]; omega⟩, flush2_2 _, ?_⟩
  rw [mem_block]
  obtain ⟨-, -, -, -, e4, e5⟩ := index_maps ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 6 ≤ (i 1).val ∧ (i 1).val < win2_2.index _ (1 : Fin 2) * 6 + 6
    rw [e5]; omega

/-- After the region the result array holds the product of the two arrays the region found. -/
theorem final (c : Dev nD) (L : (⟨S200000x16, .f32⟩ : BufTy).Contents (Elt Ideal)) (R : (⟨S16x6, .f32⟩ : BufTy).Contents (Elt Ideal))
    (P : (⟨S200000x6, .f32⟩ : BufTy).Contents (Elt Ideal)) (hL : V c main_v45 = L) (hR : V c main_arg4 = R) (hP : IsProduct L R P) :
    (dat2 V c).arrAt 2 cfg2.N = P :=
  (dat2 V c).arrAt_eq_of_cover 2 P (fun t _ => flushed_eq V c L R P hL hR hP t) covered

end Cert.KernelIdeal.SecondProjection

end
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LogSoftmaxRow.lean ====
/-
  The log-softmax of one row.

  For a row r of six extended reals: with M the maximum of the row (folded from −∞, as both programs compute it),
  entry q of the log-softmax is (r q − M) − log (Σ_t exp (r t − M)). Both programs compute exactly this expression,
  operation by operation, on every row of the last layer's pre-activations; stating it once for a bare row lets the
  kernel's block and the reference's whole array be compared row by row.
-/
import Idealize.ShloMosaic.PureOps.Ideal

noncomputable section

namespace Cert.LogSoftmaxRow

open Idealize.ShloMosaic

/-- The maximum of a row of six, folded from what the word of −∞ denotes. -/
def rowMax (r : Fin 6 → EReal) : EReal :=
  (Finset.univ : Finset (Fin 6)).fold max (Ideal.ofBits .f32 0xFF800000#32) r

/-- Entry `q` of the log-softmax of the row `r`. -/
def logSoftmax (r : Fin 6 → EReal) (q : Fin 6) : EReal :=
  (r q - rowMax r) - Ideal.log (∑ t : Fin 6, Ideal.exp (r t - rowMax r))

end Cert.LogSoftmaxRow

end
-- ==== Proof.BiasLogSoftmax.lean ====
/-
  The bias-and-log-softmax region: what the 40-point grid leaves in its result array.

  At each of 40 grid points the kernel takes a block of 5000 rows of the aggregated second-layer features, adds the
  bias row to every row, and replaces every row by its log-softmax: the row's maximum M (a lane maximum from −∞, kept
  as a column and spread back over the row), the shifted row r − M, the logarithm of the sum of its exponentials
  (again a lane reduction kept as a column and spread back), and their difference. Every step is row by row, so
  entry (p, q) of the block a point writes back is the log-softmax of row n = 5000 t + p of the whole biased array
  at q. The 40 blocks tile the 200000 rows, so the result array ends holding that function of the whole array.
-/
import proofs.«100570_j33397665694120_1_alg».proof.Proof.Gen.KernelIdeal.Frame
import proofs.«100570_j33397665694120_1_alg».proof.Proof.LibRowReduce
import proofs.«100570_j33397665694120_1_alg».proof.Proof.LibKeepdims
import proofs.«100570_j33397665694120_1_alg».proof.Proof.LogSoftmaxRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasLogSoftmax

open Idealize.ShloMosaic Idealize.ShloMosaic.TcCoe Idealize.SL.Sem
open Idealize.ShloMosaic.Pipeline (Dat)
open Idealize.ShloMosaic.ValueIdx (ix1 ix2 eq_ix2)
open Cert.KernelIdeal Cert.KernelIdeal.Gen Cert.LogSoftmaxRow

-- the contents of every buffer when the region is entered: a parameter, as in the generated frame
variable (V : (c : Dev nD) → (b : Ref sig .tc) → Buf (Elt Ideal) ((c : Thread nD τ).loc b))

theorem zero_offsets : (![0, 0] : Fin 2 → Nat) = fun _ => 0 := funext fun a => by fin_cases a <;> rfl

/-! ## The body at an entry -/

/-- The lane maximum of a block, kept as a column and spread back over the row, read at `(p, q)`: the maximum of
    row `p`. -/
theorem spread_max (v : FVec Ideal S5000x6 .f32) (p : Fin 5000) (q : Fin 6) :
    broadcastTo S5000x6 (shapeCast S5000x1 (multiReduction .maximumf [1] S5000 v 0xFF800000#32 reduces_S5000x6_S5000 (.inl rfl) rfl)
        shapeCasts_S5000_S5000x1) broadcasts_S5000x1_S5000x6 (ix2 p q)
      = rowMax (fun s => v (ix2 p s)) := by
  rw [ValueIdx.broadcastTo_a1_ab_apply, ValueIdx.shapeCast_a_a1_apply, ValueIdx.multiReduction_maximumf_row]
  rfl

/-- The logarithm of the lane sum of a block, kept as a column and spread back over the row, read at `(p, q)`:
    the logarithm of the sum of row `p`. -/
theorem spread_logsum (w : FVec Ideal S5000x6 .f32) (p : Fin 5000) (q : Fin 6) :
    broadcastTo S5000x6 (log (shapeCast S5000x1 (multiReduction .add [1] S5000 w 0x00000000#32 reduces_S5000x6_S5000 (.inl rfl) rfl)
        shapeCasts_S5000_S5000x1)) broadcasts_S5000x1_S5000x6 (ix2 p q)
      = Ideal.log (∑ s : Fin 6, w (ix2 p s)) := by
  rw [ValueIdx.broadcastTo_a1_ab_apply]
  show Ideal.log (shapeCast S5000x1 (multiReduction .add [1] S5000 w 0x00000000#32 reduces_S5000x6_S5000 (.inl rfl) rfl)
        shapeCasts_S5000_S5000x1 (ix2 p (0 : Fin 1))) = _
  rw [ValueIdx.shapeCast_a_a1_apply, ValueIdx.multiReduction_add_row]

/-- The body's stored value at `(p, q)`: the log-softmax at `q` of row `p` of the block with the bias row added. -/
theorem payload_apply (b : FVec Ideal S1x6 .f32) (x : FVec Ideal S5000x6 .f32) (p : Fin 5000) (q : Fin 6) :
    k3_pay1 (F := Ideal) b x (ix2 p q) = logSoftmax (fun s => x (ix2 p s) + b (ix2 (0 : Fin 1) s)) q := by
  unfold k3_pay1
  simp only [shapeCast_self]
  generalize hv : addf x (broadcastTo S5000x6 b broadcasts_S1x6_S5000x6) = v
  have hrow : (fun s : Fin 6 => x (ix2 p s) + b (ix2 (0 : Fin 1) s)) = fun s => v (ix2 p s) := funext fun s => by
    rw [← hv]
    show _ = x (ix2 p s) + broadcastTo S5000x6 b broadcasts_S1x6_S5000x6 (ix2 p s)
    rw [ValueIdx.broadcastTo_1b_ab_apply]
  rw [hrow, ValueIdx.subf_apply, ValueIdx.subf_apply, spread_logsum, spread_max]
  unfold logSoftmax
  refine congrArg (fun z => (v (ix2 p q) - rowMax (fun s => v (ix2 p s))) - Ideal.log z) (Finset.sum_congr rfl fun s _ => ?_)
  show Ideal.exp (v (ix2 p s) - broadcastTo S5000x6 (shapeCast S5000x1 (multiReduction .maximumf [1] S5000 v 0xFF800000#32 reduces_S5000x6_S5000 (.inl rfl) rfl)
        shapeCasts_S5000_S5000x1) broadcasts_S5000x1_S5000x6 (ix2 p s)) = _
  rw [spread_max]

/-! ## The blocks -/

/-- The printed index maps over the grid: point `t` takes row block `t` of the features and of the result, and
    the whole bias row. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The features' block at point `t` is rows `5000 t … 5000 t + 4999` of the array. -/
theorem data_block (c : Dev nD) (t : Fin cfg3.N) (y : S5000x6.Idx) (i : S200000x6.Idx)
    (h0 : (i 0).val = t.val * 5000 + (y 0).val) (h1 : (i 1).val = (y 1).val) :
    (iblk3 V c 0 t : Vec Ideal S5000x6 .f32) y = (V c main_v58 : S200000x6.Idx → Elt Ideal .f32) i := by
  obtain ⟨e0, e1, -, -, -, -⟩ := index_maps t
  unfold iblk3
  rw [View.read_apply]
  refine congrArg (V c main_v58 : S200000x6.Idx → Elt Ideal .f32) (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 6 + 1 * (y 1).val = (i 1).val; rw [e1, h1]; omega

/-- The bias block at every point is the whole bias row. -/
theorem bias_block (c : Dev nD) (t : Fin cfg3.N) (y : S1x6.Idx) :
    (iblk3 V c 1 t : Vec Ideal S1x6 .f32) y = (V c main_v59 : S1x6.Idx → Elt Ideal .f32) y := by
  obtain ⟨-, -, e2, e3, -, -⟩ := index_maps t
  unfold iblk3
  rw [View.read_apply]
  refine congrArg (V c main_v59 : S1x6.Idx → Elt Ideal .f32) (funext fun a => Fin.ext ?_)
  match a with
  | ⟨0, _⟩ => show win3_1.index t (0 : Fin 2) * 1 + 1 * (y 0).val = (y 0).val; rw [e2]; omega
  | ⟨1, _⟩ => show win3_1.index t (1 : Fin 2) * 6 + 1 * (y 1).val = (y 1).val; rw [e3]; omega

/-! ## The array after the region -/

/-- `P` is, row by row, the log-softmax of `A` with the bias row `B` added to every row. -/
def IsBiasLogSoftmax (A : (⟨S200000x6, .f32⟩ : BufTy).Contents (Elt Ideal)) (B : (⟨S1x6, .f32⟩ : BufTy).Contents (Elt Ideal))
    (P : (⟨S200000x6, .f32⟩ : BufTy).Contents (Elt Ideal)) : Prop :=
  ∀ (n : Fin 200000) (q : Fin 6), P (ix2 n q) = logSoftmax (fun s => A (ix2 n s) + B (ix2 (0 : Fin 1) s)) q

/-- What point `t` writes back is row block `t` of that array: the body works row by row, and the point's block
    holds exactly the rows of its result block. -/
theorem flushed_eq (c : Dev nD) (A : (⟨S200000x6, .f32⟩ : BufTy).Contents (Elt Ideal)) (B : (⟨S1x6, .f32⟩ : BufTy).Contents (Elt Ideal))
    (P : (⟨S200000x6, .f32⟩ : BufTy).Contents (Elt Ideal)) (hA : V c main_v58 = A) (hB : V c main_v59 = B) (hP : IsBiasLogSoftmax A B P)
    (t : Fin cfg3.N) :
    (dat3 V c).flushed 2 t = ((cfg3.win 2).blk t).view.read (Elt Ideal) P := by
  show (cfg3.win 2).cut (grid3.coords t) ((dat3 V c).after 2 t) = _
  rw [after3_2]
  unfold out3_2
  rw [View.canon_unit_zero zero_offsets]
  simp only [View.ld_unit_zero (S := S5000x6) zero_offsets, View.ld_unit_zero (S := S1x6) zero_offsets]
  obtain ⟨-, -, -, -, e4, e5⟩ := index_maps t
  have hN : cfg3.N = 40 := N_3
  have ht : t.val < 40 := hN ▸ t.isLt
  funext j
  obtain ⟨p, q, rfl⟩ : ∃ (p : Fin 5000) (q : Fin 6), j = ix2 p q := ⟨j 0, j 1, eq_ix2 j⟩
  have he : ((cfg3.win 2).blk t).view.emb (ix2 p q) = ix2 (⟨t.val * 5000 + p.val, by omega⟩ : Fin 200000) q :=
    funext fun a => Fin.ext (by
      match a with
      | ⟨0, _⟩ => show win3_2.index t (0 : Fin 2) * 5000 + 1 * p.val = t.val * 5000 + p.val; rw [e4]; omega
      | ⟨1, _⟩ => show win3_2.index t (1 : Fin 2) * 6 + 1 * q.val = q.val; rw [e5]; omega)
  show k3_pay1 (iblk3 V c 1 t) (iblk3 V c 0 t) (ix2 p q) = P (((cfg3.win 2).blk t).view.emb (ix2 p q))
  rw [he, hP, payload_apply]
  refine congrArg (fun r => logSoftmax r q) (funext fun s => ?_)
  rw [data_block V c t (ix2 p s) (ix2 (⟨t.val * 5000 + p.val, by omega⟩ : Fin 200000) s) rfl rfl,
    bias_block V c t (ix2 (0 : Fin 1) s), congrFun hA, congrFun hB]

/-- An index of the result array lies in point `t`'s block iff each coordinate lies in the block's range. -/
theorem mem_block (t : Fin cfg3.N) (i : S200000x6.Idx) :
    i ∈ ((cfg3.win 2).blk t).view.set ↔ ∀ a : Fin 2, win3_2.index t a * S5000x6.size a ≤ (i a).val ∧ (i a).val < win3_2.index t a * S5000x6.size a + S5000x6.size a := by
  show i ∈ ((View.whole main_v60).slice (win3_2.rect t)).set ↔ _
  rw [View.set_slice_whole, Rect.mem_set_unit]
  exact Iff.rfl

/-- The 40 row blocks of 5000 rows cover the 200000 rows: row `r` lies in block `r / 5000`. -/
theorem covered (i : S200000x6.Idx) :
    ∃ t : Fin cfg3.N, (cfg3.win 2).flush t = true ∧ i ∈ ((cfg3.win 2).blk t).view.set := by
  have hi0 : (i 0).val < 200000 := (i 0).isLt
  have hi1 : (i 1).val < 6 := (i 1).isLt
  have hN : cfg3.N = 40 := N_3
  refine ⟨⟨(i 0).val / 5000, by rw [hN]; omega⟩, flush3_2 _, ?_⟩
  rw [mem_block]
  obtain ⟨-, -, -, -, e4, e5⟩ := index_maps ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 6 ≤ (i 1).val ∧ (i 1).val < win3_2.index _ (1 : Fin 2) * 6 + 6
    rw [e5]; omega

/-- After the region the result array holds, row by row, the log-softmax of the biased features. -/
theorem final (c : Dev nD) (A : (⟨S200000x6, .f32⟩ : BufTy).Contents (Elt Ideal)) (B : (⟨S1x6, .f32⟩ : BufTy).Contents (Elt Ideal))
    (P : (⟨S200000x6, .f32⟩ : BufTy).Contents (Elt Ideal)) (hA : V c main_v58 = A) (hB : V c main_v59 = B) (hP : IsBiasLogSoftmax A B P) :
    (dat3 V c).arrAt 2 cfg3.N = P :=
  (dat3 V c).arrAt_eq_of_cover 2 P (fun t _ => flushed_eq V c A B P hA hB hP t) covered

end Cert.KernelIdeal.BiasLogSoftmax

end
-- ==== Proof.HostStretches.lean ====
/-
  The host operations between the kernel's four regions, stretch by stretch.

  Around its four grids the kernel's program does on the host what the reference does: it appends the self-loops to
  the two rows of the edge list, counts each node's incoming edges by a segment sum of ones, takes the inverse square
  roots of the counts, and multiplies those of the two ends of every edge (the edge weights); then, after each
  projection, it gathers the projected rows at the edges' sources, scales them by the edge weights and sums them into
  the edges' targets. The operations are the reference's own, in the reference's order. So each stretch, started from
  buffers that hold the reference's stage values, leaves the reference's next stage values: the lemmas below say
  that, for an arbitrary valuation of the buffers before the stretch and for any float values (no arithmetic is
  opened: the two programs apply the same operations), reading the stretch's operations one by one.
-/
import proofs.«100570_j33397665694120_1_alg».proof.Proof.Gen.KernelIdeal.Launch
import proofs.«100570_j33397665694120_1_alg».proof.Proof.RefRead
import Idealize.ShloMosaic.Lib.StableHlo.Run
import Idealize.ShloMosaic.Lib.Pipeline.Value
import Idealize.ShloMosaic.Lib.ValueIdx

set_option maxRecDepth 16384

noncomputable section

namespace Cert.KernelIdeal.Stretches

open Idealize.ShloMosaic Idealize.ShloMosaic.TcCoe Idealize.SL.Sem Idealize.ShloMosaic.StableHlo
open Idealize.ShloMosaic.ValueIdx (ix1 ix2)
open Cert.KernelIdeal Cert.KernelIdeal.Gen
open Cert.ReferenceIdeal.ReadP

/-- A stretch leaves a buffer none of its operations writes as it found it. -/
macro "untouched_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

variable {F : FTy → Type} [FloatOps F]

-- the buffers' contents before a stretch
variable (Wp : Valuation τ sig (Elt F))

/-! ## Before the first projection: the edge lists with self-loops, the degrees, the edge weights -/

/-- The sources of the edges, self-loops appended. -/
theorem sources (A1 : (⟨Cert.ReferenceIdeal.S2x6400000, .i32⟩ : BufTy).Contents (Elt F)) (h1 : Wp (Proc.devRef .tc main_arg1) = A1) :
    after (hostOps0 (F := F)) Wp (Proc.devRef .tc main_v3) = val_main_v3 (F := F) A1 := by
  after_results; rw [h1]; rfl

/-- The targets of the edges, self-loops appended. -/
theorem targets (A1 : (⟨Cert.ReferenceIdeal.S2x6400000, .i32⟩ : BufTy).Contents (Elt F)) (h1 : Wp (Proc.devRef .tc main_arg1) = A1) :
    after (hostOps0 (F := F)) Wp (Proc.devRef .tc main_v6) = val_main_v6 (F := F) A1 := by
  after_results; rw [h1]; rfl

/-- Which nodes have a positive degree. -/
theorem degree_positive (A1 : (⟨Cert.ReferenceIdeal.S2x6400000, .i32⟩ : BufTy).Contents (Elt F)) (h1 : Wp (Proc.devRef .tc main_arg1) = A1) :
    after (hostOps0 (F := F)) Wp (Proc.devRef .tc main_v12) = val_main_v12 (F := F) A1 := by
  after_results; rw [h1]; rfl

/-- The inverse square roots of the degrees. -/
theorem degree_rsqrt (A1 : (⟨Cert.ReferenceIdeal.S2x6400000, .i32⟩ : BufTy).Contents (Elt F)) (h1 : Wp (Proc.devRef .tc main_arg1) = A1) :
    after (hostOps0 (F := F)) Wp (Proc.devRef .tc main_v13) = val_main_v13 (F := F) A1 := by
  after_results; rw [h1]; rfl

/-- The zero the degree-zero nodes get. -/
theorem zero_fill :
    after (hostOps0 (F := F)) Wp (Proc.devRef .tc main_cst_2) = val_main_cst_2 (F := F) := by
  after_results; rfl

set_option maxHeartbeats 4000000 in
/-- The per-node factor: the inverse square root of the degree where the degree is positive, zero elsewhere. -/
theorem node_factor (A1 : (⟨Cert.ReferenceIdeal.S2x6400000, .i32⟩ : BufTy).Contents (Elt F))
    (h12 : Wp (Proc.devRef .tc main_v12) = val_main_v12 (F := F) A1)
    (h13 : Wp (Proc.devRef .tc main_v13) = val_main_v13 (F := F) A1)
    (hc : Wp (Proc.devRef .tc main_cst_2) = val_main_cst_2 (F := F)) :
    after (hostOps0_1 (F := F)) Wp (Proc.devRef .tc main_v14) = val_main_v14 (F := F) A1 := by
  after_results; rw [h12, h13, hc]; rfl

set_option maxHeartbeats 4000000 in
/-- The edge weights as a column: the product of the factors of the two ends of every edge. -/
theorem edge_weights (A1 : (⟨Cert.ReferenceIdeal.S2x6400000, .i32⟩ : BufTy).Contents (Elt F))
    (h3 : Wp (Proc.devRef .tc main_v3) = val_main_v3 (F := F) A1)
    (h6 : Wp (Proc.devRef .tc main_v6) = val_main_v6 (F := F) A1)
    (h14 : Wp (Proc.devRef .tc main_v14) = val_main_v14 (F := F) A1) :
    after (hostOps0_2 (F := F)) Wp (Proc.devRef .tc main_v30) = val_main_v38 (F := F) A1 := by
  after_results; rw [h3, h6, h14]; rfl

/-! ## Between the first projection and the first bias: gather, scale, segment sum -/

set_option maxHeartbeats 4000000 in
/-- The projected rows gathered at the sources, scaled by the edge weights and summed into the targets. -/
theorem aggregate1 (A0 : (⟨Cert.ReferenceIdeal.S200000x21, .f32⟩ : BufTy).Contents (Elt F)) (A1 : (⟨Cert.ReferenceIdeal.S2x6400000, .i32⟩ : BufTy).Contents (Elt F)) (A2 : (⟨Cert.ReferenceIdeal.S21x16, .f32⟩ : BufTy).Contents (Elt F))
    (h31 : Wp (Proc.devRef .tc main_v31) = val_main_v30 (F := F) A0 A2)
    (h3 : Wp (Proc.devRef .tc main_v3) = val_main_v3 (F := F) A1)
    (h6 : Wp (Proc.devRef .tc main_v6) = val_main_v6 (F := F) A1)
    (h30 : Wp (Proc.devRef .tc main_v30) = val_main_v38 (F := F) A1) :
    after (hostOps1 (F := F)) Wp (Proc.devRef .tc main_v43) = val_main_v43 (F := F) A0 A1 A2 := by
  after_results; rw [h31, h3, h6, h30]; rfl

/-- The first bias as a row: entry `(0, q)` is entry `q` of the bias vector. -/
theorem bias1_row (A3 : (⟨Cert.ReferenceIdeal.S16, .f32⟩ : BufTy).Contents (Elt F)) (h : Wp (Proc.devRef .tc main_arg3) = A3) (q : Fin 16) :
    (after (hostOps1 (F := F)) Wp (Proc.devRef .tc main_v44) : S1x16.Idx → Elt F .f32) (ix2 (0 : Fin 1) q) = A3 (ix1 q) := by
  after_results; rw [h]
  show shapeCast S1x16 A3 shapeCasts_S16_S1x16 (ix2 (0 : Fin 1) q) = A3 (ix1 q)
  exact shapeCast_apply A3 shapeCasts_S16_S1x16 _ _ (by
    rw [Shape.rowMajor_val_one, Shape.rowMajor_val_two]; show q.val = 0 * 16 + q.val; omega)

/-! ## Between the second projection and the second bias: gather, scale, segment sum -/

set_option maxHeartbeats 4000000 in
/-- The projected rows gathered at the sources, scaled by the edge weights and summed into the targets. -/
theorem aggregate2 (A0 : (⟨Cert.ReferenceIdeal.S200000x21, .f32⟩ : BufTy).Contents (Elt F)) (A1 : (⟨Cert.ReferenceIdeal.S2x6400000, .i32⟩ : BufTy).Contents (Elt F)) (A2 : (⟨Cert.ReferenceIdeal.S21x16, .f32⟩ : BufTy).Contents (Elt F))
    (A3 : (⟨Cert.ReferenceIdeal.S16, .f32⟩ : BufTy).Contents (Elt F)) (A4 : (⟨Cert.ReferenceIdeal.S16x6, .f32⟩ : BufTy).Contents (Elt F))
    (h46 : Wp (Proc.devRef .tc main_v46) = val_main_v48 (F := F) A0 A1 A2 A3 A4)
    (h3 : Wp (Proc.devRef .tc main_v3) = val_main_v3 (F := F) A1)
    (h6 : Wp (Proc.devRef .tc main_v6) = val_main_v6 (F := F) A1)
    (h30 : Wp (Proc.devRef .tc main_v30) = val_main_v56 (F := F) A1) :
    after (hostOps3 (F := F)) Wp (Proc.devRef .tc main_v58) = val_main_v61 (F := F) A0 A1 A2 A3 A4 := by
  after_results; rw [h46, h3, h6, h30]; rfl

/-- The second bias as a row: entry `(0, q)` is entry `q` of the bias vector. -/
theorem bias2_row (A5 : (⟨Cert.ReferenceIdeal.S6, .f32⟩ : BufTy).Contents (Elt F)) (h : Wp (Proc.devRef .tc main_arg5) = A5) (q : Fin 6) :
    (after (hostOps3 (F := F)) Wp (Proc.devRef .tc main_v59) : S1x6.Idx → Elt F .f32) (ix2 (0 : Fin 1) q) = A5 (ix1 q) := by
  after_results; rw [h]
  show shapeCast S1x6 A5 shapeCasts_S6_S1x6 (ix2 (0 : Fin 1) q) = A5 (ix1 q)
  exact shapeCast_apply A5 shapeCasts_S6_S1x6 _ _ (by
    rw [Shape.rowMajor_val_one, Shape.rowMajor_val_two]; show q.val = 0 * 6 + q.val; omega)

/-- The two stages of the reference that hold the edge weights as a column are one array. -/
theorem weights_again (A1 : (⟨Cert.ReferenceIdeal.S2x6400000, .i32⟩ : BufTy).Contents (Elt F)) : val_main_v38 (F := F) A1 = val_main_v56 (F := F) A1 := rfl

end Cert.KernelIdeal.Stretches

end
-- ==== Proof.RefLogSoftmax.lean ====
/-
  The reference's log-softmax stage read at an index.

  jax.nn.log_softmax over the last axis prints as: the row maximum (a reduce with a maximum body from −∞), once more
  the maximum with −∞ (the identity on a maximum that was folded from −∞), the shifted row, its exponentials, their
  row sum from zero, the logarithm, and the difference. Read at row n and column q this is the log-softmax of the
  row, as one expression of the row's six entries — the same expression the kernel's block computes.
-/
import proofs.«100570_j33397665694120_1_alg».proof.Proof.RefRead
import proofs.«100570_j33397665694120_1_alg».proof.Proof.LogSoftmaxRow
import Idealize.ShloMosaic.Lib.ValueIdx
import Idealize.ShloMosaic.PureOps.Ideal.Laws

set_option maxRecDepth 16384

noncomputable section

namespace Cert.ReferenceIdeal.LogSoftmaxStage

open Idealize.ShloMosaic Idealize.ShloMosaic.TcCoe Idealize.SL.Sem
open Idealize.ShloMosaic.ValueIdx (ix1 ix2)
open Cert.ReferenceIdeal Cert.ReferenceIdeal.Gen Cert.ReferenceIdeal.ReadP Cert.LogSoftmaxRow

variable (x0 : (⟨Cert.ReferenceIdeal.S200000x21, .f32⟩ : BufTy).Contents (Elt Ideal)) (x1 : (⟨Cert.ReferenceIdeal.S2x6400000, .i32⟩ : BufTy).Contents (Elt Ideal)) (x2 : (⟨Cert.ReferenceIdeal.S21x16, .f32⟩ : BufTy).Contents (Elt Ideal)) (x3 : (⟨Cert.ReferenceIdeal.S16, .f32⟩ : BufTy).Contents (Elt Ideal)) (x4 : (⟨Cert.ReferenceIdeal.S16x6, .f32⟩ : BufTy).Contents (Elt Ideal)) (x5 : (⟨Cert.ReferenceIdeal.S6, .f32⟩ : BufTy).Contents (Elt Ideal))

/-- The biased row: entry `(n, s)` of the last layer's pre-activation is the aggregated feature plus the bias. -/
theorem biased_apply (n : Fin 200000) (s : Fin 6) :
    val_main_v64 (F := Ideal) x0 x1 x2 x3 x4 x5 (ix2 n s) = val_main_v61 (F := Ideal) x0 x1 x2 x3 x4 (ix2 n s) + x5 (ix1 s) := by
  rw [val_main_v64_apply, val_main_v63_apply, val_main_v62_apply]
  exact congrArg (val_main_v61 (F := Ideal) x0 x1 x2 x3 x4 (ix2 n s) + ·)
    (congrArg x5 (funext fun a => Fin.ext (by match a with | ⟨0, _⟩ => rfl)))

/-- A reduce with a maximum body over the second axis of a `[200000, 6]` array from −∞, at row `n`: the fold of `max`
    over the row's six entries. -/
theorem reduceMax_row (y : FVec Ideal S200000x6 .f32) (n : Fin 200000) :
    Host.reduce FloatOps.maximumf y (constant S_ .f32 0xFF800000#32) reducesTo_S200000x6_S200000_d1 h_S_ (ix1 n)
      = rowMax (fun s => y (ix2 n s)) := by
  refine (Host.reduce_eq_fold_single FloatOps.maximumf y _ reducesTo_S200000x6_S200000_d1 (by decide) h_S_ (ix1 n)).trans ?_
  unfold rowMax
  exact congrArg ((Finset.univ : Finset (Fin 6)).fold max (Ideal.ofBits .f32 0xFF800000#32))
    (funext fun s => congrArg y (funext fun a => Fin.ext (by match a with | ⟨0, _⟩ => rfl | ⟨1, _⟩ => rfl)))

/-- The reduce with a maximum body, at row `n`: the maximum of the row folded from −∞. -/
theorem rowmax_apply (n : Fin 200000) :
    val_main_call2_v0 (F := Ideal) x0 x1 x2 x3 x4 x5 (ix1 n)
      = rowMax (fun s => val_main_v64 (F := Ideal) x0 x1 x2 x3 x4 x5 (ix2 n s)) := by
  unfold val_main_call2_v0 val_main_call2_cst
  generalize val_main_v64 (F := Ideal) x0 x1 x2 x3 x4 x5 = y
  exact reduceMax_row y n

/-- The shift spread over the row: at every `(n, s)` the row's maximum (the second maximum with −∞ changes nothing). -/
theorem shift_apply (n : Fin 200000) (s : Fin 6) :
    val_main_call2_v4 (F := Ideal) x0 x1 x2 x3 x4 x5 (ix2 n s)
      = rowMax (fun s' => val_main_v64 (F := Ideal) x0 x1 x2 x3 x4 x5 (ix2 n s')) := by
  rw [val_main_call2_v4_apply, val_main_call2_v3_apply, val_main_call2_v2_apply, val_main_call2_v1_apply, val_main_call2_cst_0_apply,
    show idx_main_call2_v3 (idx_main_call2_v4 (ix2 n s)) = ix1 n from funext fun a => Fin.ext (by match a with | ⟨0, _⟩ => rfl),
    rowmax_apply]
  unfold rowMax
  exact max_eq_right ((Finset.le_fold_max _).mpr (Or.inl le_rfl))

/-- The shifted row. -/
theorem shifted_apply (n : Fin 200000) (s : Fin 6) :
    val_main_call2_v5 (F := Ideal) x0 x1 x2 x3 x4 x5 (ix2 n s)
      = val_main_v64 (F := Ideal) x0 x1 x2 x3 x4 x5 (ix2 n s) - rowMax (fun s' => val_main_v64 (F := Ideal) x0 x1 x2 x3 x4 x5 (ix2 n s')) := by
  rw [val_main_call2_v5_apply, shift_apply]
  rfl

/-- The logarithm of the row sum of the exponentials, spread over the row. -/
theorem logsum_apply (n : Fin 200000) (q : Fin 6) :
    val_main_call2_v10 (F := Ideal) x0 x1 x2 x3 x4 x5 (ix2 n q)
      = Ideal.log (∑ s : Fin 6, Ideal.exp (val_main_v64 (F := Ideal) x0 x1 x2 x3 x4 x5 (ix2 n s)
          - rowMax (fun s' => val_main_v64 (F := Ideal) x0 x1 x2 x3 x4 x5 (ix2 n s')))) := by
  rw [val_main_call2_v10_apply, val_main_call2_v9_apply, val_main_call2_v8_apply, val_main_call2_v7_apply, val_main_call2_cst_1_apply]
  rw [Ideal.hostUnary_log_def, Ideal.ofBits_def, Ideal.ofBits_zero_f32, zero_add]
  refine congrArg Ideal.log (Finset.sum_congr rfl fun s _ => ?_)
  rw [val_main_call2_v6_apply,
    show idx_main_call2_v7 (idx_main_call2_v8 (idx_main_call2_v10 (ix2 n q))) s = ix2 n s from
      funext fun a => Fin.ext (by match a with | ⟨0, _⟩ => rfl | ⟨1, _⟩ => rfl),
    shifted_apply]
  exact Ideal.hostUnary_exp_def _

/-- The reference's result at `(n, q)`: the log-softmax at `q` of row `n` of the aggregated features plus the bias. -/
theorem stage_apply (n : Fin 200000) (q : Fin 6) :
    val_main_v65 (F := Ideal) x0 x1 x2 x3 x4 x5 (ix2 n q)
      = logSoftmax (fun s => val_main_v61 (F := Ideal) x0 x1 x2 x3 x4 (ix2 n s) + x5 (ix1 s)) q := by
  rw [val_main_v65_apply, shifted_apply, logsum_apply]
  rw [show (fun s : Fin 6 => val_main_v61 (F := Ideal) x0 x1 x2 x3 x4 (ix2 n s) + x5 (ix1 s))
      = fun s => val_main_v64 (F := Ideal) x0 x1 x2 x3 x4 x5 (ix2 n s) from funext fun s => (biased_apply x0 x1 x2 x3 x4 x5 n s).symm]
  rfl

end Cert.ReferenceIdeal.LogSoftmaxStage

end
-- ==== Proof.Chain.lean ====
/-
  The idealized kernel's result is the reference's result stage.

  The contents of the buffers are followed from the launch through @main's nine segments. Before the first grid
  the host computes the edge lists with self-loops and the edge weights: the reference's stages of the same names.
  The first grid leaves x · W1; the host gathers, scales and sums it along the edges; the second grid adds the bias
  and cuts off at zero; the third grid leaves h · W2; the host gathers, scales and sums again; the last grid adds the
  bias and takes the log-softmax of every row. At each boundary the buffer just written holds the reference's stage
  of the same meaning, as a function of the six arguments as launched, so the result buffer ends holding the
  reference's result stage.
-/
import proofs.«100570_j33397665694120_1_alg».proof.Proof.Gen.KernelIdeal.Frame
import proofs.«100570_j33397665694120_1_alg».proof.Proof.KRun
import proofs.«100570_j33397665694120_1_alg».proof.Proof.FirstProjection
import proofs.«100570_j33397665694120_1_alg».proof.Proof.BiasRelu
import proofs.«100570_j33397665694120_1_alg».proof.Proof.SecondProjection
import proofs.«100570_j33397665694120_1_alg».proof.Proof.BiasLogSoftmax
import proofs.«100570_j33397665694120_1_alg».proof.Proof.HostStretches
import proofs.«100570_j33397665694120_1_alg».proof.Proof.RefRead
import proofs.«100570_j33397665694120_1_alg».proof.Proof.RefLogSoftmax

set_option maxRecDepth 16384

noncomputable section

namespace Cert.KernelIdeal.Chain

open Idealize.ShloMosaic Idealize.ShloMosaic.TcCoe Idealize.SL.Sem Idealize.ShloMosaic.StableHlo
open Idealize.ShloMosaic.ValueIdx (ix1 ix2)
open Cert.KernelIdeal Cert.KernelIdeal.Gen
open Cert.ReferenceIdeal.ReadP Cert.LogSoftmaxRow

variable (m : (ℓ : Loc nD τ sig) → Buf (Elt Ideal) ℓ) (ρ : Dev nD → PrngReg) (c : Dev nD)

/-! ## The six arguments as launched -/

abbrev A0 : (⟨Cert.ReferenceIdeal.S200000x21, .f32⟩ : BufTy).Contents (Elt Ideal) := m ((c : Thread nD τ).loc main_arg0)
abbrev A1 : (⟨Cert.ReferenceIdeal.S2x6400000, .i32⟩ : BufTy).Contents (Elt Ideal) := m ((c : Thread nD τ).loc main_arg1)
abbrev A2 : (⟨Cert.ReferenceIdeal.S21x16, .f32⟩ : BufTy).Contents (Elt Ideal) := m ((c : Thread nD τ).loc main_arg2)
abbrev A3 : (⟨Cert.ReferenceIdeal.S16, .f32⟩ : BufTy).Contents (Elt Ideal) := m ((c : Thread nD τ).loc main_arg3)
abbrev A4 : (⟨Cert.ReferenceIdeal.S16x6, .f32⟩ : BufTy).Contents (Elt Ideal) := m ((c : Thread nD τ).loc main_arg4)
abbrev A5 : (⟨Cert.ReferenceIdeal.S6, .f32⟩ : BufTy).Contents (Elt Ideal) := m ((c : Thread nD τ).loc main_arg5)

-- an argument is written by none of the three stretches before the first grid: it enters the grid as launched
set_option hygiene false in
macro "as_launched " b:ident : tactic => `(tactic|
  exact ((by untouched_by hostOps0_2 : W3 m ρ c (Proc.devRef .tc $b) = W2 m ρ c (Proc.devRef .tc $b)).trans
    ((by untouched_by hostOps0_1 : W2 m ρ c (Proc.devRef .tc $b) = W1 m ρ c (Proc.devRef .tc $b)).trans
    ((by untouched_by hostOps0 : W1 m ρ c (Proc.devRef .tc $b) = W0 m ρ c (Proc.devRef .tc $b)).trans rfl))))

/-! ## Before the first grid -/

theorem w1_sources : W1 m ρ c (Proc.devRef .tc main_v3) = val_main_v3 (F := Ideal) (A1 m c) :=
  Stretches.sources (W0 m ρ c) (A1 m c) rfl
theorem w1_targets : W1 m ρ c (Proc.devRef .tc main_v6) = val_main_v6 (F := Ideal) (A1 m c) :=
  Stretches.targets (W0 m ρ c) (A1 m c) rfl
theorem w1_positive : W1 m ρ c (Proc.devRef .tc main_v12) = val_main_v12 (F := Ideal) (A1 m c) :=
  Stretches.degree_positive (W0 m ρ c) (A1 m c) rfl
theorem w1_rsqrt : W1 m ρ c (Proc.devRef .tc main_v13) = val_main_v13 (F := Ideal) (A1 m c) :=
  Stretches.degree_rsqrt (W0 m ρ c) (A1 m c) rfl
theorem w1_zero : W1 m ρ c (Proc.devRef .tc main_cst_2) = val_main_cst_2 (F := Ideal) :=
  Stretches.zero_fill (W0 m ρ c)

theorem w2_factor : W2 m ρ c (Proc.devRef .tc main_v14) = val_main_v14 (F := Ideal) (A1 m c) :=
  Stretches.node_factor (W1 m ρ c) (A1 m c) (w1_positive m ρ c) (w1_rsqrt m ρ c) (w1_zero m ρ c)
theorem w2_sources : W2 m ρ c (Proc.devRef .tc main_v3) = val_main_v3 (F := Ideal) (A1 m c) :=
  (by untouched_by hostOps0_1 : W2 m ρ c (Proc.devRef .tc main_v3) = W1 m ρ c (Proc.devRef .tc main_v3)).trans (w1_sources m ρ c)
theorem w2_targets : W2 m ρ c (Proc.devRef .tc main_v6) = val_main_v6 (F := Ideal) (A1 m c) :=
  (by untouched_by hostOps0_1 : W2 m ρ c (Proc.devRef .tc main_v6) = W1 m ρ c (Proc.devRef .tc main_v6)).trans (w1_targets m ρ c)

theorem w3_weights : W3 m ρ c (Proc.devRef .tc main_v30) = val_main_v38 (F := Ideal) (A1 m c) :=
  Stretches.edge_weights (W2 m ρ c) (A1 m c) (w2_sources m ρ c) (w2_targets m ρ c) (w2_factor m ρ c)
theorem w3_sources : W3 m ρ c (Proc.devRef .tc main_v3) = val_main_v3 (F := Ideal) (A1 m c) :=
  (by untouched_by hostOps0_2 : W3 m ρ c (Proc.devRef .tc main_v3) = W2 m ρ c (Proc.devRef .tc main_v3)).trans (w2_sources m ρ c)
theorem w3_targets : W3 m ρ c (Proc.devRef .tc main_v6) = val_main_v6 (F := Ideal) (A1 m c) :=
  (by untouched_by hostOps0_2 : W3 m ρ c (Proc.devRef .tc main_v6) = W2 m ρ c (Proc.devRef .tc main_v6)).trans (w2_targets m ρ c)
theorem w3_arg0 : W3 m ρ c (Proc.devRef .tc main_arg0) = A0 m c := by as_launched main_arg0
theorem w3_arg2 : W3 m ρ c (Proc.devRef .tc main_arg2) = A2 m c := by as_launched main_arg2
theorem w3_arg3 : W3 m ρ c (Proc.devRef .tc main_arg3) = A3 m c := by as_launched main_arg3
theorem w3_arg4 : W3 m ρ c (Proc.devRef .tc main_arg4) = A4 m c := by as_launched main_arg4
theorem w3_arg5 : W3 m ρ c (Proc.devRef .tc main_arg5) = A5 m c := by as_launched main_arg5

/-! ## The first grid: x · W1 -/

theorem w4_projection : W4 m ρ c (Proc.devRef .tc main_v31) = val_main_v30 (F := Ideal) (A0 m c) (A2 m c) :=
  (W4_arr m ρ c 2).trans (FirstProjection.final (V3 m ρ) c (A0 m c) (A2 m c) (val_main_v30 (F := Ideal) (A0 m c) (A2 m c))
    (w3_arg0 m ρ c) (w3_arg2 m ρ c) fun i => (val_main_v30_apply (A0 m c) (A2 m c) i).trans
      (Finset.sum_congr rfl fun k _ => congrArg₂ (· * ·)
        (congrArg (A0 m c) (funext fun a => by match a with | ⟨0, _⟩ => rfl | ⟨1, _⟩ => rfl))
        (congrArg (A2 m c) (funext fun a => by match a with | ⟨0, _⟩ => rfl | ⟨1, _⟩ => rfl))))
theorem w4_sources : W4 m ρ c (Proc.devRef .tc main_v3) = val_main_v3 (F := Ideal) (A1 m c) :=
  (W4_of_ne m ρ c main_v3 (by decide)).trans (w3_sources m ρ c)
theorem w4_targets : W4 m ρ c (Proc.devRef .tc main_v6) = val_main_v6 (F := Ideal) (A1 m c) :=
  (W4_of_ne m ρ c main_v6 (by decide)).trans (w3_targets m ρ c)
theorem w4_weights : W4 m ρ c (Proc.devRef .tc main_v30) = val_main_v38 (F := Ideal) (A1 m c) :=
  (W4_of_ne m ρ c main_v30 (by decide)).trans (w3_weights m ρ c)
theorem w4_arg3 : W4 m ρ c (Proc.devRef .tc main_arg3) = A3 m c := (W4_of_ne m ρ c main_arg3 (by decide)).trans (w3_arg3 m ρ c)
theorem w4_arg4 : W4 m ρ c (Proc.devRef .tc main_arg4) = A4 m c := (W4_of_ne m ρ c main_arg4 (by decide)).trans (w3_arg4 m ρ c)
theorem w4_arg5 : W4 m ρ c (Proc.devRef .tc main_arg5) = A5 m c := (W4_of_ne m ρ c main_arg5 (by decide)).trans (w3_arg5 m ρ c)

/-! ## The first aggregation, and the bias-and-relu grid -/

theorem w5_aggregate : W5 m ρ c (Proc.devRef .tc main_v43) = val_main_v43 (F := Ideal) (A0 m c) (A1 m c) (A2 m c) :=
  Stretches.aggregate1 (W4 m ρ c) (A0 m c) (A1 m c) (A2 m c) (w4_projection m ρ c) (w4_sources m ρ c) (w4_targets m ρ c) (w4_weights m ρ c)
theorem w5_bias (q : Fin 16) :
    (W5 m ρ c (Proc.devRef .tc main_v44) : S1x16.Idx → Elt Ideal .f32) (ix2 (0 : Fin 1) q) = A3 m c (ix1 q) :=
  Stretches.bias1_row (W4 m ρ c) (A3 m c) (w4_arg3 m ρ c) q

theorem w6_hidden : W6 m ρ c (Proc.devRef .tc main_v45) = val_main_v47 (F := Ideal) (A0 m c) (A1 m c) (A2 m c) (A3 m c) :=
  (W6_arr m ρ c 2).trans (BiasRelu.final (V5 m ρ) c (val_main_v43 (F := Ideal) (A0 m c) (A1 m c) (A2 m c)) (W5 m ρ c (Proc.devRef .tc main_v44))
    (val_main_v47 (F := Ideal) (A0 m c) (A1 m c) (A2 m c) (A3 m c)) (w5_aggregate m ρ c) rfl fun n q => by
      rw [val_main_v47_apply, val_main_v46_apply, val_main_v45_apply, val_main_v44_apply, val_main_call1_v0_apply,
        val_main_call1_cst_apply, w5_bias m ρ c q]
      exact congrArg (fun z => max (val_main_v43 (F := Ideal) (A0 m c) (A1 m c) (A2 m c) (ix2 n q) + z) (Ideal.ofBits .f32 0x00000000#32))
        (congrArg (A3 m c) (funext fun a => Fin.ext (by match a with | ⟨0, _⟩ => rfl))))
theorem w6_arg4 : W6 m ρ c (Proc.devRef .tc main_arg4) = A4 m c :=
  (W6_of_ne m ρ c main_arg4 (by decide)).trans
    ((by untouched_by hostOps1 : W5 m ρ c (Proc.devRef .tc main_arg4) = W4 m ρ c (Proc.devRef .tc main_arg4)).trans (w4_arg4 m ρ c))

/-! ## The second grid: h · W2 -/

theorem w7_projection : W7 m ρ c (Proc.devRef .tc main_v46)
    = val_main_v48 (F := Ideal) (A0 m c) (A1 m c) (A2 m c) (A3 m c) (A4 m c) :=
  (W7_arr m ρ c 2).trans (SecondProjection.final (V6 m ρ) c (val_main_v47 (F := Ideal) (A0 m c) (A1 m c) (A2 m c) (A3 m c)) (A4 m c)
    (val_main_v48 (F := Ideal) (A0 m c) (A1 m c) (A2 m c) (A3 m c) (A4 m c)) (w6_hidden m ρ c) (w6_arg4 m ρ c) fun i =>
      (val_main_v48_apply (A0 m c) (A1 m c) (A2 m c) (A3 m c) (A4 m c) i).trans
      (Finset.sum_congr rfl fun k _ => congrArg₂ (· * ·)
        (congrArg (val_main_v47 (F := Ideal) (A0 m c) (A1 m c) (A2 m c) (A3 m c)) (funext fun a => by match a with | ⟨0, _⟩ => rfl | ⟨1, _⟩ => rfl))
        (congrArg (A4 m c) (funext fun a => by match a with | ⟨0, _⟩ => rfl | ⟨1, _⟩ => rfl))))

-- a buffer that the first aggregation, the relu grid and the second grid all leave alone
set_option hygiene false in
macro "through_middle " b:ident : tactic => `(tactic|
  exact ((W7_of_ne m ρ c $b (by decide)).trans ((W6_of_ne m ρ c $b (by decide)).trans
    (by untouched_by hostOps1 : W5 m ρ c (Proc.devRef .tc $b) = W4 m ρ c (Proc.devRef .tc $b)))))

theorem w7_sources : W7 m ρ c (Proc.devRef .tc main_v3) = val_main_v3 (F := Ideal) (A1 m c) :=
  (by through_middle main_v3 : W7 m ρ c (Proc.devRef .tc main_v3) = W4 m ρ c (Proc.devRef .tc main_v3)).trans (w4_sources m ρ c)
theorem w7_targets : W7 m ρ c (Proc.devRef .tc main_v6) = val_main_v6 (F := Ideal) (A1 m c) :=
  (by through_middle main_v6 : W7 m ρ c (Proc.devRef .tc main_v6) = W4 m ρ c (Proc.devRef .tc main_v6)).trans (w4_targets m ρ c)
theorem w7_weights : W7 m ρ c (Proc.devRef .tc main_v30) = val_main_v56 (F := Ideal) (A1 m c) :=
  (by through_middle main_v30 : W7 m ρ c (Proc.devRef .tc main_v30) = W4 m ρ c (Proc.devRef .tc main_v30)).trans
    ((w4_weights m ρ c).trans (Stretches.weights_again (A1 m c)))
theorem w7_arg5 : W7 m ρ c (Proc.devRef .tc main_arg5) = A5 m c :=
  (by through_middle main_arg5 : W7 m ρ c (Proc.devRef .tc main_arg5) = W4 m ρ c (Proc.devRef .tc main_arg5)).trans (w4_arg5 m ρ c)

/-! ## The second aggregation, and the bias-and-log-softmax grid -/

theorem w8_aggregate : W8 m ρ c (Proc.devRef .tc main_v58)
    = val_main_v61 (F := Ideal) (A0 m c) (A1 m c) (A2 m c) (A3 m c) (A4 m c) :=
  Stretches.aggregate2 (W7 m ρ c) (A0 m c) (A1 m c) (A2 m c) (A3 m c) (A4 m c) (w7_projection m ρ c) (w7_sources m ρ c) (w7_targets m ρ c) (w7_weights m ρ c)
theorem w8_bias (q : Fin 6) :
    (W8 m ρ c (Proc.devRef .tc main_v59) : S1x6.Idx → Elt Ideal .f32) (ix2 (0 : Fin 1) q) = A5 m c (ix1 q) :=
  Stretches.bias2_row (W7 m ρ c) (A5 m c) (w7_arg5 m ρ c) q

/-- The result buffer after the last grid holds the reference's result stage of the six arguments as launched. -/
theorem w9_result : W9 m ρ c (Proc.devRef .tc main_v60)
    = val_main_v65 (F := Ideal) (A0 m c) (A1 m c) (A2 m c) (A3 m c) (A4 m c) (A5 m c) :=
  (W9_arr m ρ c 2).trans (BiasLogSoftmax.final (V8 m ρ) c (val_main_v61 (F := Ideal) (A0 m c) (A1 m c) (A2 m c) (A3 m c) (A4 m c))
    (W8 m ρ c (Proc.devRef .tc main_v59)) (val_main_v65 (F := Ideal) (A0 m c) (A1 m c) (A2 m c) (A3 m c) (A4 m c) (A5 m c))
    (w8_aggregate m ρ c) rfl fun n q =>
      (Cert.ReferenceIdeal.LogSoftmaxStage.stage_apply (A0 m c) (A1 m c) (A2 m c) (A3 m c) (A4 m c) (A5 m c) n q).trans
        (congrArg (fun r => logSoftmax r q) (funext fun s => by rw [w8_bias m ρ c s])))

/-! ## The run -/

/-- Every weakly fair execution of the idealized kernel terminates without a fault, with the result buffer at the
    reference's result stage of the arguments as launched, and the arguments unchanged. -/
theorem run : θ_run defs (onTc (τ := τ) (main (F := Ideal))) ⟨m, fun _ => 0, ρ⟩ (fun r => ∀ c : Dev nD,
      r.2.mem ((c.tc : Thread nD τ).loc main_v60)
        = val_main_v65 (F := Ideal) (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (w9_result m ρ c), (h c).2⟩) (Cert.KernelIdeal.Result.run_result m ρ)

end Cert.KernelIdeal.Chain

end
-- ==== Proof.lean ====
/-
  A two-layer graph convolution with a log-softmax head: the Pallas kernel program against its jnp reference, at
  the exact values.

  Both programs compute, for node features x, an edge list, and weights W1, b1, W2, b2,
      log_softmax ( Â · relu ( Â · (x · W1) + b1 ) · W2 + b2 ),
  where Â is the adjacency with self-loops, normalised symmetrically by the inverse square roots of the degrees, and
  applied by gathering rows at the edges' sources, scaling them by the edge weights, and summing them into the edges'
  targets. The reference does all of it on the host. The kernel program keeps the edge work on the host, operation
  for operation as the reference has it, and runs four grids of 40 row blocks for the rest: the two projections
  (bf16 operands into a zero accumulator), the bias with the relu, and the bias with the log-softmax.

  At the exact values a rounding to bf16 is the identity and a block product's entry is the plain sum of products, so
  each projection grid leaves the product of the whole arrays; the other two grids work row by row, so they leave the
  row-wise function of the whole array; and the log-softmax of a row is the same expression in both programs (the
  reference's second maximum with −∞ changes nothing). Following the buffers through @main's segments, the kernel's
  result buffer ends at the reference's result stage of the arguments (Proof/Chain.lean); the reference's run, read
  stretch by stretch (Proof/ReferenceRun.lean), ends at the same stage; the arguments agree, so the two results are equal entry by entry. The ideal pass
  rewrote nothing, so `preserves` is `True`; no step uses the finiteness of the inputs.
-/
import proofs.«100570_j33397665694120_1_alg».proof.Defs
import proofs.«100570_j33397665694120_1_alg».proof.Proof.Gen.Kernel
import proofs.«100570_j33397665694120_1_alg».proof.Proof.Gen.Kernel.Frame
import proofs.«100570_j33397665694120_1_alg».proof.Proof.Gen.KernelIdeal
import proofs.«100570_j33397665694120_1_alg».proof.Proof.Gen.KernelIdeal.Frame
import proofs.«100570_j33397665694120_1_alg».proof.Proof.Gen.ReferenceIdeal
import proofs.«100570_j33397665694120_1_alg».proof.Proof.Gen.Pre_finite_inputs
import proofs.«100570_j33397665694120_1_alg».proof.Proof.ReferenceRun
import proofs.«100570_j33397665694120_1_alg».proof.Proof.RefRead
import proofs.«100570_j33397665694120_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a sequence of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stages.run (F := Ideal) m ρ)

/-- From memories that agree on the six arguments both programs run, and both end with the result at the
    reference's result stage of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v65 (F := Ideal) (Cert.KernelIdeal.Chain.A0 m c) (Cert.KernelIdeal.Chain.A1 m c)
      (Cert.KernelIdeal.Chain.A2 m c) (Cert.KernelIdeal.Chain.A3 m c) (Cert.KernelIdeal.Chain.A4 m c) (Cert.KernelIdeal.Chain.A5 m c),
    Cert.KernelIdeal.Chain.run m ρ, ?_⟩
  refine (θ_run Cert.ReferenceIdeal.defs _ _).mono (fun _ h c => ⟨(h c).1.trans ?_, (h c).2⟩)
    (Cert.ReferenceIdeal.Stages.run (F := Ideal) m' ρ')
  dsimp only [Cert.ReferenceIdeal.Stages.A0, Cert.ReferenceIdeal.Stages.A1, Cert.ReferenceIdeal.Stages.A2, Cert.ReferenceIdeal.Stages.A3,
    Cert.ReferenceIdeal.Stages.A4, Cert.ReferenceIdeal.Stages.A5, Cert.KernelIdeal.Chain.A0, Cert.KernelIdeal.Chain.A1,
    Cert.KernelIdeal.Chain.A2, Cert.KernelIdeal.Chain.A3, Cert.KernelIdeal.Chain.A4, Cert.KernelIdeal.Chain.A5]
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
